-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1024x1024 : Shape := ⟨3, ![16, 1024, 1024]⟩
abbrev S16x2048x1024 : Shape := ⟨3, ![16, 2048, 1024]⟩
abbrev S1024x1024 : Shape := ⟨2, ![1024, 1024]⟩
abbrev S1024x2048 : Shape := ⟨2, ![1024, 2048]⟩
abbrev S1024 : Shape := ⟨1, ![1024]⟩
abbrev S_ : Shape := ⟨0, ![]⟩

class Facts : Prop where
  bcast_S_S16x1024x1024 : S_.BroadcastsInDim S16x1024x1024 (![] : Fin 0 → Fin S16x1024x1024.rank)
  reducesTo_S16x1024x1024_S_d0_1_2 : S16x1024x1024.ReducesTo [0, 1, 2] S_
  h_S_ : 0 < S_.numel
  bcast_S_S16x2048x1024 : S_.BroadcastsInDim S16x2048x1024 (![] : Fin 0 → Fin S16x2048x1024.rank)
  reducesTo_S16x2048x1024_S_d0_1_2 : S16x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_arg4 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  main_v23

def fn {F : FTy → Type} [FloatOps F] (main_arg0 : FVec F S16x1024x1024 .f32) (main_arg1 : FVec F S16x2048x1024 .f32) (main_arg2 : FVec F S1024x1024 .f32) (main_arg3 : FVec F S1024x2048 .f32) (main_arg4 : FVec F S1024 .f32) : IVec S_ 1 :=
  let main_v0 : FVec F S16x1024x1024 .f32 := Host.absf main_arg0
  let main_cst : FVec F S_ .f32 := constant S_ .f32 0x7F800000#32
  let main_v1 : FVec F S16x1024x1024 .f32 := broadcastInDim S16x1024x1024 ![] bcast_S_S16x1024x1024 main_cst
  let main_v2 : IVec S16x1024x1024 1 := cmpf .olt main_v0 main_v1
  let main_c : IVec S_ 1 := constantI S_ 1 1#1
  let main_v3 : IVec S_ 1 := (fun x v => Host.reduce IntOp.andi x v reducesTo_S16x1024x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_v13 main_v16
-- ==== Kernel.lean ====
abbrev S16x1024x1024 : Shape := ⟨3, ![16, 1024, 1024]⟩
abbrev S16x2048x1024 : Shape := ⟨3, ![16, 2048, 1024]⟩
abbrev S1024x1024 : Shape := ⟨2, ![1024, 1024]⟩
abbrev S1024x2048 : Shape := ⟨2, ![1024, 2048]⟩
abbrev S1024 : Shape := ⟨1, ![1024]⟩
abbrev S1x1024 : Shape := ⟨2, ![1, 1024]⟩
abbrev S16x1024x2048 : Shape := ⟨3, ![16, 1024, 2048]⟩
abbrev S1x128x1024 : Shape := ⟨3, ![1, 128, 1024]⟩
abbrev S1x2048x1024 : Shape := ⟨3, ![1, 2048, 1024]⟩
abbrev S1x128x2048 : Shape := ⟨3, ![1, 128, 2048]⟩
abbrev S128x1024 : Shape := ⟨2, ![128, 1024]⟩
abbrev S2048x1024 : Shape := ⟨2, ![2048, 1024]⟩
abbrev S128x2048 : Shape := ⟨2, ![128, 2048]⟩
abbrev S128 : Shape := ⟨1, ![128]⟩
abbrev S128x1 : Shape := ⟨2, ![128, 1]⟩

abbrev nBuf : Space → Nat
  | .hbm => 15
  | .vmem => 12
  | .smem => 0
  | _ => 0

abbrev bufTy : (tb : Table) → Fin (tcTables nBuf tb) → BufTy
  | .hbm, ⟨0, _⟩ => ⟨S16x1024x1024, .f32⟩
  | .hbm, ⟨1, _⟩ => ⟨S16x2048x1024, .f32⟩
  | .hbm, ⟨2, _⟩ => ⟨S1024x1024, .f32⟩
  | .hbm, ⟨3, _⟩ => ⟨S1024x2048, .f32⟩
  | .hbm, ⟨4, _⟩ => ⟨S1024, .f32⟩
  | .hbm, ⟨5, _⟩ => ⟨S1024x1024, .f32⟩
  | .hbm, ⟨6, _⟩ => ⟨S1024x1024, .bf16⟩
  | .hbm, ⟨7, _⟩ => ⟨S1024x1024, .f32⟩
  | .hbm, ⟨8, _⟩ => ⟨S1024x1024, .bf16⟩
  | .hbm, ⟨9, _⟩ => ⟨S1x1024, .f32⟩
  | .hbm, ⟨10, _⟩ => ⟨S16x1024x1024, .bf16⟩
  | .hbm, ⟨11, _⟩ => ⟨S16x2048x1024, .bf16⟩
  | .hbm, ⟨12, _⟩ => ⟨S1024x1024, .bf16⟩
  | .hbm, ⟨13, _⟩ => ⟨S16x1024x1024, .f32⟩
  | .hbm, ⟨14, _⟩ => ⟨S16x1024x2048, .f32⟩
  | .local _ .vmem, ⟨0, _⟩ => ⟨S1x128x1024, .bf16⟩
  | .local _ .vmem, ⟨1, _⟩ => ⟨S1x128x1024, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .bf16⟩
  | .local _ .vmem, ⟨7, _⟩ => ⟨S1x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x2048, .f32⟩
  | .local _ .vmem, ⟨11, _⟩ => ⟨S1x128x2048, .f32⟩
  | _, _ => ⟨S16x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8_0 : Ref sig .tc := ⟨.hbm, 13, rfl⟩
abbrev main_v8_1 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

class Facts₀ : Prop where
  slices_S1024x2048_S1024x1024_0_0 : S1024x2048.Slices ![0, 0] S1024x1024
  bitsLt_bf16_f32 : FTy.bits .bf16 < FTy.bits .f32
  slices_S1024x2048_S1024x1024_0_1024 : S1024x2048.Slices ![0, 1024] S1024x1024
  shapeCasts_S1024_S1x1024 : S1024.ShapeCasts S1x1024
  inb_S1x128x1024_S1x128x1024_0_0_0 : ∀ a, (![0, 0, 0] : Fin 3 → Nat) a + S1x128x1024.size a ≤ S1x128x1024.size a
  h_S1x128x1024 : 0 < S1x128x1024.numel
  shapeCasts_S1x128x1024_S128x1024 : S1x128x1024.ShapeCasts S128x1024
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  reduces_S128x2048_S128 : S128x2048.Reduces [1] S128
  shapeCasts_S128_S128x1 : S128.ShapeCasts S128x1
  broadcasts_S128x1_S128x2048 : S128x1.Broadcasts S128x2048
  inb_S1x128x2048_S1x128x2048_0_0_0 : ∀ a, (![0, 0, 0] : Fin 3 → Nat) a + S1x128x2048.size a ≤ S1x128x2048.size a
  h_S1x128x2048 : 0 < S1x128x2048.numel
  shapeCasts_S1x128x2048_S128x2048 : S1x128x2048.ShapeCasts S128x2048
  shapeCasts_S128x2048_S1x128x2048 : S128x2048.ShapeCasts S1x128x2048
  broadcasts_S1x1024_S128x1024 : S1x1024.Broadcasts S128x1024
  shapeCasts_S128x1024_S1x128x1024 : S128x1024.ShapeCasts S1x128x1024
  dot_S128x1024_S1024x1024_S128x1024_1_1_0_0_n_n_wf : DotDims.WF S128x1024 S1024x1024 S128x1024 [1] [1] [0] [0] [] []
  dot_S128x1024_S2048x1024_S128x2048_1_1_0_0_n_n_wf : DotDims.WF S128x1024 S2048x1024 S128x2048 [1] [1] [0] [0] [] []
  dot_S128x2048_S2048x1024_S128x1024_1_0_0_1_n_n_wf : DotDims.WF S128x2048 S2048x1024 S128x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x128x1024.size a ≤ S16x1024x1024.size a
  hwx0_0 : ∀ i : grid0.Coords, EltTy.bits .bf16 = 32 ∨ (Rect.block (s := S16x1024x1024) S1x128x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .bf16 = 32 ∨ (Rect.block (s := S16x2048x1024) S1x2048x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .bf16 = 32 ∨ (Rect.block (s := S1024x1024) S1024x1024.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x1024.size a
  hwx0_5 : ∀ i : grid0.Coords, EltTy.bits .f32 = 32 ∨ (Rect.block (s := S1x1024) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x128x1024.size a ≤ S16x1024x1024.size a
  hwx0_6 : ∀ i : grid0.Coords, EltTy.bits .f32 = 32 ∨ (Rect.block (s := S16x1024x1024) S1x128x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128x2048.size a ≤ S16x1024x2048.size a
  hwx0_7 : ∀ i : grid0.Coords, EltTy.bits .f32 = 32 ∨ (Rect.block (s := S16x1024x2048) S1x128x2048.size (cc0_transform_7 i) (hinb0_7 i)).WholeWords (EltTy.packing .f32)

variable [Facts₀]

def dot_S128x1024_S1024x1024_S128x1024_1_1_0_0_n_n : DotDims S128x1024 S1024x1024 S128x1024 where
  lhsContracting := [1]
  rhsContracting := [1]
  lhsNonContracting := [0]
  rhsNonContracting := [0]
  lhsBatch := []
  rhsBatch := []
  wf := dot_S128x1024_S1024x1024_S128x1024_1_1_0_0_n_n_wf
def dot_S128x1024_S2048x1024_S128x2048_1_1_0_0_n_n : DotDims S128x1024 S2048x1024 S128x2048 where
  lhsContracting := [1]
  rhsContracting := [1]
  lhsNonContracting := [0]
  rhsNonContracting := [0]
  lhsBatch := []
  rhsBatch := []
  wf := dot_S128x1024_S2048x1024_S128x2048_1_1_0_0_n_n_wf
def dot_S128x2048_S2048x1024_S128x1024_1_0_0_1_n_n : DotDims S128x2048 S2048x1024 S128x1024 where
  lhsContracting := [1]
  rhsContracting := [0]
  lhsNonContracting := [0]
  rhsNonContracting := [1]
  lhsBatch := []
  rhsBatch := []
  wf := dot_S128x2048_S2048x1024_S128x1024_1_0_0_1_n_n_wf

abbrev win0_0 : Pipeline.Window sig grid0 :=
  Pipeline.Window.ofSpec (Memref.whole main_v5) S1x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1x2048x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S1x128x1024.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S1x128x2048.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16x1024x1024 : Shape := ⟨3, ![16, 1024, 1024]⟩
abbrev S16x2048x1024 : Shape := ⟨3, ![16, 2048, 1024]⟩
abbrev S1024x1024 : Shape := ⟨2, ![1024, 1024]⟩
abbrev S1024x2048 : Shape := ⟨2, ![1024, 2048]⟩
abbrev S1024 : Shape := ⟨1, ![1024]⟩
abbrev S16x1024x2048 : Shape := ⟨3, ![16, 1024, 2048]⟩
abbrev S_ : Shape := ⟨0, ![]⟩
abbrev S16x1024 : Shape := ⟨2, ![16, 1024]⟩
abbrev S16x1024x1 : Shape := ⟨3, ![16, 1024, 1]⟩
abbrev S1x1x1024 : Shape := ⟨3, ![1, 1, 1024]⟩

abbrev nBuf : Space → Nat
  | .hbm => 28
  | .vmem => 0
  | .smem => 0
  | _ => 0

abbrev bufTy : (tb : Table) → Fin (tcTables nBuf tb) → BufTy
  | .hbm, ⟨0, _⟩ => ⟨S16x1024x1024, .f32⟩
  | .hbm, ⟨1, _⟩ => ⟨S16x2048x1024, .f32⟩
  | .hbm, ⟨2, _⟩ => ⟨S1024x1024, .f32⟩
  | .hbm, ⟨3, _⟩ => ⟨S1024x2048, .f32⟩
  | .hbm, ⟨4, _⟩ => ⟨S1024, .f32⟩
  | .hbm, ⟨5, _⟩ => ⟨S16x1024x1024, .f32⟩
  | .hbm, ⟨6, _⟩ => ⟨S16x1024x2048, .f32⟩
  | .hbm, ⟨7, _⟩ => ⟨S_, .f32⟩
  | .hbm, ⟨8, _⟩ => ⟨S16x1024, .f32⟩
  | .hbm, ⟨9, _⟩ => ⟨S_, .f32⟩
  | .hbm, ⟨10, _⟩ => ⟨S16x1024, .f32⟩
  | .hbm, ⟨11, _⟩ => ⟨S16x1024, .f32⟩
  | .hbm, ⟨12, _⟩ => ⟨S16x1024x1, .f32⟩
  | .hbm, ⟨13, _⟩ => ⟨S16x1024x2048, .f32⟩
  | .hbm, ⟨14, _⟩ => ⟨S16x1024x2048, .f32⟩
  | .hbm, ⟨15, _⟩ => ⟨S16x1024x2048, .f32⟩
  | .hbm, ⟨16, _⟩ => ⟨S_, .f32⟩
  | .hbm, ⟨17, _⟩ => ⟨S16x1024, .f32⟩
  | .hbm, ⟨18, _⟩ => ⟨S16x1024x1, .f32⟩
  | .hbm, ⟨19, _⟩ => ⟨S16x1024x2048, .f32⟩
  | .hbm, ⟨20, _⟩ => ⟨S16x1024x2048, .f32⟩
  | .hbm, ⟨21, _⟩ => ⟨S16x1024x1024, .f32⟩
  | .hbm, ⟨22, _⟩ => ⟨S16x1024x2048, .f32⟩
  | .hbm, ⟨23, _⟩ => ⟨S16x1024x1024, .f32⟩
  | .hbm, ⟨24, _⟩ => ⟨S1x1x1024, .f32⟩
  | .hbm, ⟨25, _⟩ => ⟨S16x1024x1024, .f32⟩
  | .hbm, ⟨26, _⟩ => ⟨S16x1024x1024, .f32⟩
  | .hbm, ⟨27, _⟩ => ⟨S16x1024x1024, .f32⟩
  | _, _ => ⟨S16x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  reducesTo_S16x1024x2048_S16x1024_d2 : S16x1024x2048.ReducesTo [2] S16x1024
  h_S_ : 0 < S_.numel
  bcast_S_S16x1024 : S_.BroadcastsInDim S16x1024 (![] : Fin 0 → Fin S16x1024.rank)
  bcast_S16x1024_S16x1024x1_0_1 : S16x1024.BroadcastsInDim S16x1024x1 (![0, 1] : Fin 2 → Fin S16x1024x1.rank)
  bcast_S16x1024x1_S16x1024x2048_0_1_2 : S16x1024x1.BroadcastsInDim S16x1024x2048 (![0, 1, 2] : Fin 3 → Fin S16x1024x2048.rank)
  concatenates_S16x1024x1024_S16x1024x1024_S16x1024x2048_d2 : Shape.Concatenates [S16x1024x1024, S16x1024x1024] S16x1024x2048 2
  bcast_S1024_S1x1x1024_2 : S1024.BroadcastsInDim S1x1x1024 (![2] : Fin 1 → Fin S1x1x1024.rank)
  bcast_S1x1x1024_S16x1024x1024_0_1_2 : S1x1x1024.BroadcastsInDim S16x1024x1024 (![0, 1, 2] : Fin 3 → Fin S16x1024x1024.rank)
  dot_S16x1024x1024_S1024x1024_S16x1024x1024_2_1_01_0_n_n_wf : DotDims.WF S16x1024x1024 S1024x1024 S16x1024x1024 [2] [1] [0, 1] [0] [] []
  dot_S16x1024x1024_S16x2048x1024_S16x1024x2048_2_2_1_1_0_0_wf : DotDims.WF S16x1024x1024 S16x2048x1024 S16x1024x2048 [2] [2] [1] [1] [0] [0]
  dot_S16x1024x2048_S16x2048x1024_S16x1024x1024_2_1_1_2_0_0_wf : DotDims.WF S16x1024x2048 S16x2048x1024 S16x1024x1024 [2] [1] [1] [2] [0] [0]
  dot_S16x1024x2048_S1024x2048_S16x1024x1024_2_1_01_0_n_n_wf : DotDims.WF S16x1024x2048 S1024x2048 S16x1024x1024 [2] [1] [0, 1] [0] [] []

variable [Facts₀]

def dot_S16x1024x1024_S1024x1024_S16x1024x1024_2_1_01_0_n_n : DotDims S16x1024x1024 S1024x1024 S16x1024x1024 where
  lhsContracting := [2]
  rhsContracting := [1]
  lhsNonContracting := [0, 1]
  rhsNonContracting := [0]
  lhsBatch := []
  rhsBatch := []
  wf := dot_S16x1024x1024_S1024x1024_S16x1024x1024_2_1_01_0_n_n_wf
def dot_S16x1024x1024_S16x2048x1024_S16x1024x2048_2_2_1_1_0_0 : DotDims S16x1024x1024 S16x2048x1024 S16x1024x2048 where
  lhsContracting := [2]
  rhsContracting := [2]
  lhsNonContracting := [1]
  rhsNonContracting := [1]
  lhsBatch := [0]
  rhsBatch := [0]
  wf := dot_S16x1024x1024_S16x2048x1024_S16x1024x2048_2_2_1_1_0_0_wf
def dot_S16x1024x2048_S16x2048x1024_S16x1024x1024_2_1_1_2_0_0 : DotDims S16x1024x2048 S16x2048x1024 S16x1024x1024 where
  lhsContracting := [2]
  rhsContracting := [1]
  lhsNonContracting := [1]
  rhsNonContracting := [2]
  lhsBatch := [0]
  rhsBatch := [0]
  wf := dot_S16x1024x2048_S16x2048x1024_S16x1024x1024_2_1_1_2_0_0_wf
def dot_S16x1024x2048_S1024x2048_S16x1024x1024_2_1_01_0_n_n : DotDims S16x1024x2048 S1024x2048 S16x1024x1024 where
  lhsContracting := [2]
  rhsContracting := [1]
  lhsNonContracting := [0, 1]
  rhsNonContracting := [0]
  lhsBatch := []
  rhsBatch := []
  wf := dot_S16x1024x2048_S1024x2048_S16x1024x1024_2_1_01_0_n_n_wf

class Facts : Prop extends Facts₀ where

variable [Facts]
-- ==== Proof.LibColumn.lean ====
/-
  A sum kept as a column: the two layout steps every `sum(axis=1, keepdims=True)` meets, read at an index.

  A vector of `a` entries viewed as an `a × 1` column has, at `(i, 0)`, the vector's entry `i`; and an `a × 1`
  column repeated along `b` columns has, at `(p, c)`, the column's entry `p`.  (Their companions for a row — a
  vector viewed `1 × a`, a `1 × b` row repeated along `a` rows — are in the library's layout file.)
-/
import Idealize.ShloMosaic.Lib.ValueIdx
import Idealize.ShloMosaic.Lib.ValueLayout
import Idealize.ShloMosaic.Lib.Pipeline.Value

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.LibMatmulZero.lean ====
/-
  A matrix product into a zero accumulator, read at one output index, at the extended reals.

  `matmul_zero_apply`: for a product that contracts ONE axis of extent `K`, the entry at an output index `j` is the sum
  over `k : Fin K` of the left operand at `li k` times the right operand at `ri k`, for ANY naming `li`, `ri` of the two
  operand indices whose coordinates are the product's own at `j` and the contracted position `k` (two per-axis
  hypotheses, closed at literal shapes by the dimension numbers' facts). It re-indexes the product's sum over its
  contraction shape to a sum over `Fin K`, so that a value proof can state a layer as `∑ k, a k * W k j`.
-/
import Idealize.ShloMosaic.Lib.ValueIdx
import Idealize.ShloMosaic.PureOps.Ideal.Laws

noncomputable section

namespace Cert.LibMatmulZero

open Idealize.ShloMosaic Idealize.ShloMosaic.ValueIdx

/-- A product contracting ONE axis of extent `K`, into the zero accumulator, read at an output index `j`: the sum over
    `k` of the left operand at `li k` times the right at `ri k`, for any naming `li`, `ri` of the operand indices whose
    coordinates are the product's own (`hl`, `hr'`). -/
theorem matmul_zero_apply {sl sr so : Shape} {φ₁ φ₂ : FTy} (d : DotDims sl sr so) (K : Nat) (hr : d.contr.rank = 1)
    (hs : d.contr.size ⟨0, by omega⟩ = K) (A : FVec Ideal sl φ₁) (B : FVec Ideal sr φ₂) (j : so.Idx)
    (li : Fin K → sl.Idx) (ri : Fin K → sr.Idx)
    (hl : ∀ k a, (d.lhsIdx j ((contrEquiv1 d K hr hs).symm k) a).val = (li k a).val)
    (hr' : ∀ k a, (d.rhsIdx j ((contrEquiv1 d K hr hs).symm k) a).val = (ri k a).val) :
    FloatOps.matmul d none A B (constant so .f32 0x00000000#32) j = ∑ k : Fin K, A (li k) * B (ri k) := by
  refine (Ideal.matmul_constant_zero_apply d none A B j).trans ?_
  rw [← Equiv.sum_comp (contrEquiv1 d K hr hs).symm]
  refine Finset.sum_congr rfl fun k _ => ?_
  rw [show d.lhsIdx j ((contrEquiv1 d K hr hs).symm k) = li k from funext fun a => Fin.ext (hl k a),
    show d.rhsIdx j ((contrEquiv1 d K hr hs).symm k) = ri k from funext fun a => Fin.ext (hr' k a)]

end Cert.LibMatmulZero

end
-- ==== Proof.LibMatmulRhsT.lean ====
/-
  A matrix product whose right operand is stored transposed, into a zero accumulator, read at an index, at the ideal
  values.

  For an `a × b` left operand and a `c × b` right operand (dimension numbers: contract the left's axis 1 with the
  right's axis 1, no batch axes — `A · Bᵀ`), entry `(p, n)` of the product is `Σ_k A(p, k) · B(n, k)`: the sum of the
  exact products, the zero the accumulator starts from adding nothing.
-/
import Idealize.ShloMosaic.Lib.ValueIdx
import Idealize.ShloMosaic.PureOps.Ideal.Laws
import proofs.«130130_j12292196401203_2_alg».proof.Proof.LibMatmulZero

noncomputable section

namespace Cert.LibMatmulRhsT

open Idealize.ShloMosaic Idealize.ShloMosaic.ValueIdx

variable {a b c : ℕ}

/-- The dimension numbers of an `a × b` by (`c × b`)ᵀ product over the shared axis. -/
abbrev rhsTDims (wf : DotDims.WF ⟨2, ![a, b]⟩ ⟨2, ![c, b]⟩ ⟨2, ![a, c]⟩ [1] [1] [0] [0] [] []) :
    DotDims ⟨2, ![a, b]⟩ ⟨2, ![c, b]⟩ ⟨2, ![a, c]⟩ where
  lhsContracting := [1]
  rhsContracting := [1]
  lhsNonContracting := [0]
  rhsNonContracting := [0]
  lhsBatch := []
  rhsBatch := []
  wf := wf

/-- THE PRODUCT READ AT `(p, n)`, for the record `rhsTDims`. -/
theorem rhsTDims_matmul_apply {φ₁ φ₂ : FTy} (wf : DotDims.WF ⟨2, ![a, b]⟩ ⟨2, ![c, b]⟩ ⟨2, ![a, c]⟩ [1] [1] [0] [0] [] [])
    (A : FVec Ideal ⟨2, ![a, b]⟩ φ₁) (B : FVec Ideal ⟨2, ![c, b]⟩ φ₂) (p : Fin a) (n : Fin c) :
    FloatOps.matmul (rhsTDims wf) none A B (constant ⟨2, ![a, c]⟩ .f32 0x00000000#32) (ix2 p n)
      = ∑ k : Fin b, A (ix2 p k) * B (ix2 n k) := by
  refine Cert.LibMatmulZero.matmul_zero_apply (rhsTDims wf) b rfl rfl A B (ix2 p n) (fun k => ix2 p k) (fun k => ix2 n k) ?_ ?_
  · intro k ax
    match ax with
    | ⟨0, _⟩ =>
      show ((rhsTDims wf).lhsIdx (ix2 p n) ((contrEquiv1 (rhsTDims wf) b rfl rfl).symm k) 0).val = p.val
      unfold DotDims.lhsIdx
      rw [dif_neg (show ¬(0 : Fin 2) ∈ (rhsTDims wf).lhsBatch from List.not_mem_nil),
        dif_pos (show (0 : Fin 2) ∈ (rhsTDims wf).lhsNonContracting from List.mem_singleton.mpr rfl)]
      rfl
    | ⟨1, _⟩ =>
      exact ((rhsTDims wf).lhsIdx_val_of_single rfl (ix2 p n) _).trans (contrEquiv1_symm_val (rhsTDims wf) b rfl rfl k)
  · intro k ax
    match ax with
    | ⟨0, _⟩ =>
      show ((rhsTDims wf).rhsIdx (ix2 p n) ((contrEquiv1 (rhsTDims wf) b rfl rfl).symm k) 0).val = n.val
      unfold DotDims.rhsIdx
      rw [dif_neg (show ¬(0 : Fin 2) ∈ (rhsTDims wf).rhsBatch from List.not_mem_nil),
        dif_pos (show (0 : Fin 2) ∈ (rhsTDims wf).rhsNonContracting from List.mem_singleton.mpr rfl)]
      rfl
    | ⟨1, _⟩ =>
      exact ((rhsTDims wf).rhsIdx_val_of_single rfl (ix2 p n) _).trans (contrEquiv1_symm_val (rhsTDims wf) b rfl rfl k)

/-- THE PRODUCT READ AT `(p, n)`, for any dimension-number record with the six lists of such a product (each
    hypothesis is `rfl` for a record written with those literal fields, whatever proves its `wf`). -/
theorem matmul_rhsT_apply {φ₁ φ₂ : FTy} (d : DotDims ⟨2, ![a, b]⟩ ⟨2, ![c, b]⟩ ⟨2, ![a, c]⟩)
    (hlc : d.lhsContracting = [1]) (hrc : d.rhsContracting = [1]) (hln : d.lhsNonContracting = [0])
    (hrn : d.rhsNonContracting = [0]) (hlb : d.lhsBatch = []) (hrb : d.rhsBatch = [])
    (A : FVec Ideal ⟨2, ![a, b]⟩ φ₁) (B : FVec Ideal ⟨2, ![c, b]⟩ φ₂) (p : Fin a) (n : Fin c) :
    FloatOps.matmul d none A B (constant ⟨2, ![a, c]⟩ .f32 0x00000000#32) (ix2 p n)
      = ∑ k : Fin b, A (ix2 p k) * B (ix2 n k) := by
  obtain ⟨lc, rc, ln, rn, lb, rb, wf⟩ := d
  dsimp only at hlc hrc hln hrn hlb hrb
  subst hlc hrc hln hrn hlb hrb
  exact rhsTDims_matmul_apply wf A B p n

end Cert.LibMatmulRhsT

end
-- ==== Proof.LibMatmulRows.lean ====
/-
  A matrix product contracting the one shared axis, into a zero accumulator, read at an index, at the ideal values.

  For an `a × b` left operand and a `b × c` right operand (dimension numbers: contract the left's axis 1 with the
  right's axis 0, no batch axes), entry `(p, n)` of the product is `Σ_k A(p, k) · B(k, n)`: the sum of the exact
  products, the zero the accumulator starts from adding nothing.
-/
import Idealize.ShloMosaic.Lib.ValueIdx
import Idealize.ShloMosaic.PureOps.Ideal.Laws
import proofs.«130130_j12292196401203_2_alg».proof.Proof.LibMatmulZero

noncomputable section

namespace Cert.LibMatmulRows

open Idealize.ShloMosaic Idealize.ShloMosaic.ValueIdx

variable {a b c : ℕ}

/-- The dimension numbers of an `a × b` by `b × c` product over the shared axis. -/
abbrev rowsDims (wf : DotDims.WF ⟨2, ![a, b]⟩ ⟨2, ![b, c]⟩ ⟨2, ![a, c]⟩ [1] [0] [0] [1] [] []) :
    DotDims ⟨2, ![a, b]⟩ ⟨2, ![b, c]⟩ ⟨2, ![a, c]⟩ where
  lhsContracting := [1]
  rhsContracting := [0]
  lhsNonContracting := [0]
  rhsNonContracting := [1]
  lhsBatch := []
  rhsBatch := []
  wf := wf

/-- THE PRODUCT READ AT `(p, n)`, for the record `rowsDims`. -/
theorem rowsDims_matmul_apply {φ₁ φ₂ : FTy} (wf : DotDims.WF ⟨2, ![a, b]⟩ ⟨2, ![b, c]⟩ ⟨2, ![a, c]⟩ [1] [0] [0] [1] [] [])
    (A : FVec Ideal ⟨2, ![a, b]⟩ φ₁) (B : FVec Ideal ⟨2, ![b, c]⟩ φ₂) (p : Fin a) (n : Fin c) :
    FloatOps.matmul (rowsDims wf) none A B (constant ⟨2, ![a, c]⟩ .f32 0x00000000#32) (ix2 p n)
      = ∑ k : Fin b, A (ix2 p k) * B (ix2 k n) := by
  refine Cert.LibMatmulZero.matmul_zero_apply (rowsDims wf) b rfl rfl A B (ix2 p n) (fun k => ix2 p k) (fun k => ix2 k n) ?_ ?_
  · intro k ax
    match ax with
    | ⟨0, _⟩ =>
      show ((rowsDims wf).lhsIdx (ix2 p n) ((contrEquiv1 (rowsDims wf) b rfl rfl).symm k) 0).val = p.val
      unfold DotDims.lhsIdx
      rw [dif_neg (show ¬(0 : Fin 2) ∈ (rowsDims wf).lhsBatch from List.not_mem_nil),
        dif_pos (show (0 : Fin 2) ∈ (rowsDims wf).lhsNonContracting from List.mem_singleton.mpr rfl)]
      rfl
    | ⟨1, _⟩ =>
      exact ((rowsDims wf).lhsIdx_val_of_single rfl (ix2 p n) _).trans (contrEquiv1_symm_val (rowsDims wf) b rfl rfl k)
  · intro k ax
    match ax with
    | ⟨0, _⟩ =>
      exact ((rowsDims wf).rhsIdx_val_of_single rfl (ix2 p n) _).trans (contrEquiv1_symm_val (rowsDims wf) b rfl rfl k)
    | ⟨1, _⟩ =>
      show ((rowsDims wf).rhsIdx (ix2 p n) ((contrEquiv1 (rowsDims wf) b rfl rfl).symm k) 1).val = n.val
      unfold DotDims.rhsIdx
      rw [dif_neg (show ¬(1 : Fin 2) ∈ (rowsDims wf).rhsBatch from List.not_mem_nil),
        dif_pos (show (1 : Fin 2) ∈ (rowsDims wf).rhsNonContracting from List.mem_singleton.mpr rfl)]
      rfl

/-- THE PRODUCT READ AT `(p, n)`, for any dimension-number record with the six lists of such a product (each
    hypothesis is `rfl` for a record written with those literal fields, whatever proves its `wf`). -/
theorem matmul_rows_apply {φ₁ φ₂ : FTy} (d : DotDims ⟨2, ![a, b]⟩ ⟨2, ![b, c]⟩ ⟨2, ![a, c]⟩)
    (hlc : d.lhsContracting = [1]) (hrc : d.rhsContracting = [0]) (hln : d.lhsNonContracting = [0])
    (hrn : d.rhsNonContracting = [1]) (hlb : d.lhsBatch = []) (hrb : d.rhsBatch = [])
    (A : FVec Ideal ⟨2, ![a, b]⟩ φ₁) (B : FVec Ideal ⟨2, ![b, c]⟩ φ₂) (p : Fin a) (n : Fin c) :
    FloatOps.matmul d none A B (constant ⟨2, ![a, c]⟩ .f32 0x00000000#32) (ix2 p n)
      = ∑ k : Fin b, A (ix2 p k) * B (ix2 k n) := by
  obtain ⟨lc, rc, ln, rn, lb, rb, wf⟩ := d
  dsimp only at hlc hrc hln hrn hlb hrb
  subst hlc hrc hln hrn hlb hrb
  exact rowsDims_matmul_apply wf A B p n

end Cert.LibMatmulRows

end
-- ==== Proof.AttnSpec.lean ====
/-
  Attention over one batch entry followed by an output projection, one query row at a time, on the extended reals.

  For a query row `x` (1024 entries), the batch entry's context `C` (2048 positions by 1024 features), the query
  weight `A`, the two halves `Wm`, `Wq` of the output weight and the bias `β`:
    q(o)      = Σ_h x(h) · A(o, h)
    score(s)  = Σ_h q(h) · C(s, h)
    M         = the largest score (the fold of `max` from −∞ over the positions)
    e(s)      = exp (score(s) − M),    weight(s) = e(s) / Σ_s' e(s')
    mix(h)    = Σ_s weight(s) · C(s, h)
    out(h)    = tanh ((Σ_k mix(k) · Wm(h, k) + Σ_k q(k) · Wq(h, k)) + β(h)).
  Both programs compute `weight` and `out` row by row; the one law that joins their two spellings of `out` is that a
  sum over 2048 positions is the sum over the first 1024 plus the sum over the last 1024 (`sum_join`), which holds in
  any commutative monoid, the extended reals with their infinities included.
-/
import Idealize.ShloMosaic.PureOps.Ideal

noncomputable section

namespace Cert.AttnSpec

open Idealize.ShloMosaic

/-- The query row: the input row against every row of the query weight. -/
def qRow (x : Fin 1024 → EReal) (A : Fin 1024 → Fin 1024 → EReal) (o : Fin 1024) : EReal :=
  ∑ h : Fin 1024, x h * A o h

/-- The score of context position `s`: the query row against that position's features. -/
def score (x : Fin 1024 → EReal) (C : Fin 2048 → Fin 1024 → EReal) (A : Fin 1024 → Fin 1024 → EReal) (s : Fin 2048) : EReal :=
  ∑ h : Fin 1024, qRow x A h * C s h

/-- The row's largest score, folded from −∞ (the f32 pattern of −∞). -/
def rowMax (x : Fin 1024 → EReal) (C : Fin 2048 → Fin 1024 → EReal) (A : Fin 1024 → Fin 1024 → EReal) : EReal :=
  (Finset.univ : Finset (Fin 2048)).fold max (Ideal.ofBits .f32 0xFF800000#32) (score x C A)

/-- The shifted exponential of a score. -/
def expo (x : Fin 1024 → EReal) (C : Fin 2048 → Fin 1024 → EReal) (A : Fin 1024 → Fin 1024 → EReal) (s : Fin 2048) : EReal :=
  Ideal.exp (score x C A s - rowMax x C A)

/-- The normalizer: the sum of the shifted exponentials over the positions. -/
def denom (x : Fin 1024 → EReal) (C : Fin 2048 → Fin 1024 → EReal) (A : Fin 1024 → Fin 1024 → EReal) : EReal :=
  ∑ s : Fin 2048, expo x C A s

/-- The attention weight of position `s`. -/
def weight (x : Fin 1024 → EReal) (C : Fin 2048 → Fin 1024 → EReal) (A : Fin 1024 → Fin 1024 → EReal) (s : Fin 2048) : EReal :=
  Ideal.div (expo x C A s) (denom x C A)

/-- The mixed context: the weights against feature `h` of every position. -/
def mix (x : Fin 1024 → EReal) (C : Fin 2048 → Fin 1024 → EReal) (A : Fin 1024 → Fin 1024 → EReal) (h : Fin 1024) : EReal :=
  ∑ s : Fin 2048, weight x C A s * C s h

/-- The projected sum before the bias: the mixed context against `Wm`'s row plus the query row against `Wq`'s. -/
def proj (x : Fin 1024 → EReal) (C : Fin 2048 → Fin 1024 → EReal) (A Wm Wq : Fin 1024 → Fin 1024 → EReal) (h : Fin 1024) : EReal :=
  ∑ k : Fin 1024, mix x C A k * Wm h k + ∑ k : Fin 1024, qRow x A k * Wq h k

/-- The output row. -/
def outRow (x : Fin 1024 → EReal) (C : Fin 2048 → Fin 1024 → EReal) (A Wm Wq : Fin 1024 → Fin 1024 → EReal)
    (β : Fin 1024 → EReal) (h : Fin 1024) : EReal :=
  Ideal.tanh (proj x C A Wm Wq h + β h)

/-- A sum over 2048 positions is the sum over the first 1024 plus the sum over the last 1024. -/
theorem sum_join {M : Type*} [AddCommMonoid M] (f : Fin 2048 → M) :
    ∑ k : Fin 2048, f k
      = ∑ k : Fin 1024, f ⟨k.val, by have := k.isLt; omega⟩ + ∑ k : Fin 1024, f ⟨1024 + k.val, by have := k.isLt; omega⟩ :=
  Fin.sum_univ_add (a := 1024) (b := 1024) f

/-- −∞ is neutral for `max`. -/
theorem max_negInf (y : EReal) : max (Ideal.ofBits .f32 0xFF800000#32) y = y := by
  simp [Ideal.ofBits, Ideal.ieee]

end Cert.AttnSpec

end
-- ==== Proof.KernelRows.lean ====
/-
  The kernel's body, read row by row.

  At one grid point the body holds a block of 128 input rows, the batch entry's whole context, the three weight
  matrices and the bias row. Each of its values, read at an index written by its coordinates (r, ·), is the
  corresponding quantity of the row specification for block row `r`: the first product (right operand stored
  transposed) is the query row; the second, against the context stored transposed, the scores; the maximum kept as a
  column and repeated along the positions is the row's largest score; the exponentials, their sum kept as a column,
  the quotient (the weights); the product of the weights with the context (contracting the shared axis) the mixed
  context; and the two products against the two weight halves, added, the projected sum before the bias. A change of
  float format is the identity on the extended reals, so the casts between the products drop out.
-/
import proofs.«130130_j12292196401203_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws
import proofs.«130130_j12292196401203_2_alg».proof.Proof.LibColumn
import proofs.«130130_j12292196401203_2_alg».proof.Proof.LibMatmulRhsT
import proofs.«130130_j12292196401203_2_alg».proof.Proof.LibMatmulRows
import proofs.«130130_j12292196401203_2_alg».proof.Proof.AttnSpec

noncomputable section

namespace Cert.KernelRows

open Cert.KernelIdeal Cert.KernelIdeal.Gen Idealize.ShloMosaic Idealize.ShloMosaic.ValueIdx Cert.AttnSpec

/-! ## The blocks by coordinates -/

/-- Row `r` of the block of input rows. -/
def bRow (P0 : Vec Ideal S1x128x1024 .bf16) (r : Fin 128) : Fin 1024 → EReal := fun h => P0 (ix3 (0 : Fin 1) r h)

/-- The context block. -/
def bCtx (P1 : Vec Ideal S1x2048x1024 .bf16) : Fin 2048 → Fin 1024 → EReal := fun s h => P1 (ix3 (0 : Fin 1) s h)

/-- A weight block. -/
def bMat (P : Vec Ideal S1024x1024 .bf16) : Fin 1024 → Fin 1024 → EReal := fun o h => P (ix2 o h)

/-- The bias row. -/
def bVec (P5 : Vec Ideal S1x1024 .f32) : Fin 1024 → EReal := fun h => P5 (ix2 (0 : Fin 1) h)

variable (P0 : Vec Ideal S1x128x1024 .bf16) (P1 : Vec Ideal S1x2048x1024 .bf16) (P2 P3 P4 : Vec Ideal S1024x1024 .bf16)
  (P5 : Vec Ideal S1x1024 .f32)

/-! ## Products -/

/-- A 128 × 1024 matrix against a 1024 × 1024 weight block stored transposed, at (r, h). -/
theorem matT_apply {φ : FTy} (Y : FVec Ideal S128x1024 φ) (M : Vec Ideal S1024x1024 .bf16) (r : Fin 128) (h : Fin 1024) :
    matmul dot_S128x1024_S1024x1024_S128x1024_1_1_0_0_n_n none Y
        (shapeCast S1024x1024 M shapeCasts_S1024x1024_S1024x1024 : FVec Ideal S1024x1024 .bf16)
        (constant S128x1024 .f32 0x00000000#32) (ix2 r h)
      = ∑ k : Fin 1024, Y (ix2 r k) * bMat M h k := by
  refine (Cert.LibMatmulRhsT.matmul_rhsT_apply dot_S128x1024_S1024x1024_S128x1024_1_1_0_0_n_n rfl rfl rfl rfl rfl rfl
    Y _ r h).trans ?_
  refine Finset.sum_congr rfl fun k _ => ?_
  rw [shapeCast_self]
  rfl

/-- The context block with its unit axis dropped, at (s, h). -/
theorem pay2_apply (s : Fin 2048) (h : Fin 1024) : k0_pay2 (F := Ideal) P1 (ix2 s h) = bCtx P1 s h :=
  shapeCast_1ab_ab_apply P1 shapeCasts_S1x2048x1024_S2048x1024 s h

/-- The query rows of the block. -/
theorem pay4_apply (r : Fin 128) (o : Fin 1024) : k0_pay4 (F := Ideal) P0 P2 (ix2 r o) = qRow (bRow P0 r) (bMat P2) o := by
  have e : k0_pay4 (F := Ideal) P0 P2 = matmul dot_S128x1024_S1024x1024_S128x1024_1_1_0_0_n_n none
      (shapeCast S128x1024 P0 shapeCasts_S1x128x1024_S128x1024 : FVec Ideal S128x1024 .bf16)
      (shapeCast S1024x1024 P2 shapeCasts_S1024x1024_S1024x1024 : FVec Ideal S1024x1024 .bf16)
      (constant S128x1024 .f32 0x00000000#32) := rfl
  rw [e, matT_apply]
  unfold qRow
  refine Finset.sum_congr rfl fun k _ => ?_
  rw [shapeCast_1ab_ab_apply]
  rfl

/-- The block of scores: the query rows against the context stored transposed. -/
def scoresBlk : FVec Ideal S128x2048 .f32 :=
  matmul dot_S128x1024_S2048x1024_S128x2048_1_1_0_0_n_n none (k0_pay4 (F := Ideal) P0 P2) (k0_pay2 (F := Ideal) P1)
    (constant S128x2048 .f32 0x00000000#32)

theorem scoresBlk_apply (r : Fin 128) (s : Fin 2048) :
    scoresBlk P0 P1 P2 (ix2 r s) = score (bRow P0 r) (bCtx P1) (bMat P2) s := by
  unfold scoresBlk
  refine (Cert.LibMatmulRhsT.matmul_rhsT_apply dot_S128x1024_S2048x1024_S128x2048_1_1_0_0_n_n rfl rfl rfl rfl rfl rfl
    _ _ r s).trans ?_
  unfold score
  refine Finset.sum_congr rfl fun k _ => ?_
  rw [pay4_apply, pay2_apply]

/-! ## The softmax of a 128 × 2048 matrix along its rows -/

/-- The index over row `r` whose coordinate on the reduced axis is `k`. -/
theorem lift_row (r : Fin 128) (k : Fin (S128x2048.size 1)) :
    reduces_S128x2048_S128.lift (ix1 r) k = ix2 r (⟨k.val, k.isLt⟩ : Fin 2048) := by
  funext c; apply Fin.ext
  fin_cases c <;> rfl

/-- A row's largest entry, folded from −∞. -/
def rowTop (Z : FVec Ideal S128x2048 .f32) (r : Fin 128) : EReal :=
  (Finset.univ : Finset (Fin 2048)).fold max (Ideal.ofBits .f32 0xFF800000#32) (fun s => Z (ix2 r s))

/-- The maximum over the positions kept as a column and repeated along the positions. -/
def colTop (Z : FVec Ideal S128x2048 .f32) : FVec Ideal S128x2048 .f32 :=
  broadcastTo S128x2048 (shapeCast S128x1
    (multiReduction .maximumf [1] S128 Z 0xFF800000#32 reduces_S128x2048_S128 (.inl rfl) rfl) shapeCasts_S128_S128x1)
    broadcasts_S128x1_S128x2048

theorem colTop_apply (Z : FVec Ideal S128x2048 .f32) (r : Fin 128) (s : Fin 2048) : colTop Z (ix2 r s) = rowTop Z r := by
  unfold colTop
  refine (Cert.LibColumn.broadcastTo_a1_ab_apply _ _ r s).trans ?_
  refine (Cert.LibColumn.shapeCast_a_a1_apply _ _ r (0 : Fin 1)).trans ?_
  refine (Ideal.multiReduction_maximumf_single Z _ reduces_S128x2048_S128 _ _ (ix1 r)).trans ?_
  exact congrArg (fun f => Finset.fold max (Ideal.ofBits .f32 0xFF800000#32) f (Finset.univ : Finset (Fin 2048)))
    (funext fun k => congrArg Z (lift_row r k))

/-- The sum over the positions kept as a column and repeated along the positions. -/
def colSum (Y : FVec Ideal S128x2048 .f32) : FVec Ideal S128x2048 .f32 :=
  broadcastTo S128x2048 (shapeCast S128x1
    (multiReduction .add [1] S128 Y 0x00000000#32 reduces_S128x2048_S128 (.inl rfl) rfl) shapeCasts_S128_S128x1)
    broadcasts_S128x1_S128x2048

theorem colSum_apply (Y : FVec Ideal S128x2048 .f32) (r : Fin 128) (s : Fin 2048) :
    colSum Y (ix2 r s) = ∑ s' : Fin 2048, Y (ix2 r s') := by
  unfold colSum
  refine (Cert.LibColumn.broadcastTo_a1_ab_apply _ _ r s).trans ?_
  refine (Cert.LibColumn.shapeCast_a_a1_apply _ _ r (0 : Fin 1)).trans ?_
  refine (Ideal.multiReduction_add_single Y _ reduces_S128x2048_S128 _ _ (ix1 r)).trans ?_
  exact Finset.sum_congr rfl fun k _ => congrArg Y (lift_row r k)

/-- The body's softmax of a matrix along its rows. -/
def softmaxRows (Z : FVec Ideal S128x2048 .f32) : FVec Ideal S128x2048 .f32 :=
  divf (exp (subf Z (colTop Z))) (colSum (exp (subf Z (colTop Z))))

theorem softmaxRows_apply (Z : FVec Ideal S128x2048 .f32) (r : Fin 128) (s : Fin 2048) :
    softmaxRows Z (ix2 r s)
      = Ideal.div (Ideal.exp (Z (ix2 r s) - rowTop Z r)) (∑ s' : Fin 2048, Ideal.exp (Z (ix2 r s') - rowTop Z r)) := by
  show Ideal.div (Ideal.exp (Z (ix2 r s) - colTop Z (ix2 r s))) (colSum (exp (subf Z (colTop Z))) (ix2 r s)) = _
  rw [colTop_apply, colSum_apply]
  refine congrArg (Ideal.div _) (Finset.sum_congr rfl fun s' _ => ?_)
  show Ideal.exp (Z (ix2 r s') - colTop Z (ix2 r s')) = _
  rw [colTop_apply]

/-- The attention weights of the block. -/
theorem pay5_apply (r : Fin 128) (s : Fin 2048) :
    k0_pay5 (F := Ideal) P0 P1 P2 (ix2 r s) = weight (bRow P0 r) (bCtx P1) (bMat P2) s := by
  have e : k0_pay5 (F := Ideal) P0 P1 P2 = softmaxRows (scoresBlk P0 P1 P2) := rfl
  have hZ : ∀ s', scoresBlk P0 P1 P2 (ix2 r s') = score (bRow P0 r) (bCtx P1) (bMat P2) s' :=
    fun s' => scoresBlk_apply P0 P1 P2 r s'
  have hT : rowTop (scoresBlk P0 P1 P2) r = rowMax (bRow P0 r) (bCtx P1) (bMat P2) :=
    congrArg (fun f => Finset.fold max (Ideal.ofBits .f32 0xFF800000#32) f (Finset.univ : Finset (Fin 2048))) (funext hZ)
  rw [e, softmaxRows_apply, hT]
  simp only [hZ]
  rfl

/-- The block of mixed contexts: the weights against the context, contracting the positions. -/
def mixBlk : FVec Ideal S128x1024 .f32 :=
  matmul dot_S128x2048_S2048x1024_S128x1024_1_0_0_1_n_n none
    (truncf .bf16 (k0_pay5 (F := Ideal) P0 P1 P2) bitsLt_bf16_f32) (k0_pay2 (F := Ideal) P1)
    (constant S128x1024 .f32 0x00000000#32)

theorem mixBlk_apply (r : Fin 128) (h : Fin 1024) : mixBlk P0 P1 P2 (ix2 r h) = mix (bRow P0 r) (bCtx P1) (bMat P2) h := by
  unfold mixBlk
  refine (Cert.LibMatmulRows.matmul_rows_apply dot_S128x2048_S2048x1024_S128x1024_1_0_0_1_n_n rfl rfl rfl rfl rfl rfl
    _ _ r h).trans ?_
  unfold mix
  refine Finset.sum_congr rfl fun k _ => ?_
  rw [pay2_apply]
  exact congrArg (· * bCtx P1 k h) (pay5_apply P0 P1 P2 r k)

/-- The projected sum before the bias. -/
theorem pay7_apply (r : Fin 128) (h : Fin 1024) :
    k0_pay7 (F := Ideal) P0 P1 P2 P3 P4 (ix2 r h) = proj (bRow P0 r) (bCtx P1) (bMat P2) (bMat P3) (bMat P4) h := by
  have e : k0_pay7 (F := Ideal) P0 P1 P2 P3 P4 = addf
      (matmul dot_S128x1024_S1024x1024_S128x1024_1_1_0_0_n_n none (truncf .bf16 (mixBlk P0 P1 P2) bitsLt_bf16_f32)
        (shapeCast S1024x1024 P3 shapeCasts_S1024x1024_S1024x1024 : FVec Ideal S1024x1024 .bf16)
        (constant S128x1024 .f32 0x00000000#32))
      (matmul dot_S128x1024_S1024x1024_S128x1024_1_1_0_0_n_n none (k0_pay4 (F := Ideal) P0 P2)
        (shapeCast S1024x1024 P4 shapeCasts_S1024x1024_S1024x1024 : FVec Ideal S1024x1024 .bf16)
        (constant S128x1024 .f32 0x00000000#32)) := rfl
  rw [e, addf_apply, matT_apply, matT_apply]
  unfold proj
  congr 1
  · refine Finset.sum_congr rfl fun k _ => ?_
    exact congrArg (· * bMat P3 h k) (mixBlk_apply P0 P1 P2 r k)
  · refine Finset.sum_congr rfl fun k _ => ?_
    rw [pay4_apply]

end Cert.KernelRows

end
-- ==== Proof.AttnArrays.lean ====
/-
  The two results as whole-array functions of the five argument arrays.

  Entry (b, t, s) of the attention array is the weight of position `s` for the query row (b, t) against batch entry
  `b`'s context; entry (b, t, h) of the output array is feature `h` of that row's projected output. The rows, the
  context slab, the weight matrices (the output weight cut into its first and last 1024 columns) and the bias are read
  off the arrays by coordinates.
-/
import Idealize.ShloMosaic.Lib.ValueIdx
import proofs.«130130_j12292196401203_2_alg».proof.Proof.AttnSpec

noncomputable section

namespace Cert.AttnArrays

open Idealize.ShloMosaic Idealize.ShloMosaic.ValueIdx Cert.AttnSpec

/-- Row (b, t) of the input. -/
def rowX (X : (⟨3, ![16, 1024, 1024]⟩ : Shape).Idx → EReal) (b : Fin 16) (t : Fin 1024) : Fin 1024 → EReal :=
  fun h => X (ix3 b t h)

/-- Batch entry `b`'s context. -/
def slabC (C : (⟨3, ![16, 2048, 1024]⟩ : Shape).Idx → EReal) (b : Fin 16) : Fin 2048 → Fin 1024 → EReal :=
  fun s h => C (ix3 b s h)

/-- A square weight by its two coordinates. -/
def mat (A : (⟨2, ![1024, 1024]⟩ : Shape).Idx → EReal) : Fin 1024 → Fin 1024 → EReal :=
  fun o h => A (ix2 o h)

/-- The first 1024 columns of the output weight. -/
def matLo (W : (⟨2, ![1024, 2048]⟩ : Shape).Idx → EReal) : Fin 1024 → Fin 1024 → EReal :=
  fun h k => W (ix2 h (⟨k.val, by have := k.isLt; omega⟩ : Fin 2048))

/-- The last 1024 columns of the output weight. -/
def matHi (W : (⟨2, ![1024, 2048]⟩ : Shape).Idx → EReal) : Fin 1024 → Fin 1024 → EReal :=
  fun h k => W (ix2 h (⟨1024 + k.val, by have := k.isLt; omega⟩ : Fin 2048))

/-- The bias by its coordinate. -/
def vec (β : (⟨1, ![1024]⟩ : Shape).Idx → EReal) : Fin 1024 → EReal :=
  fun h => β (ix1 h)

/-- The attention weights as one array. -/
def attnArr (X : (⟨3, ![16, 1024, 1024]⟩ : Shape).Idx → EReal) (C : (⟨3, ![16, 2048, 1024]⟩ : Shape).Idx → EReal)
    (A : (⟨2, ![1024, 1024]⟩ : Shape).Idx → EReal) : (⟨3, ![16, 1024, 2048]⟩ : Shape).Idx → EReal :=
  fun i => weight (rowX X (i 0) (i 1)) (slabC C (i 0)) (mat A) (i 2)

/-- The projected outputs as one array. -/
def outArr (X : (⟨3, ![16, 1024, 1024]⟩ : Shape).Idx → EReal) (C : (⟨3, ![16, 2048, 1024]⟩ : Shape).Idx → EReal)
    (A : (⟨2, ![1024, 1024]⟩ : Shape).Idx → EReal) (W : (⟨2, ![1024, 2048]⟩ : Shape).Idx → EReal)
    (β : (⟨1, ![1024]⟩ : Shape).Idx → EReal) : (⟨3, ![16, 1024, 1024]⟩ : Shape).Idx → EReal :=
  fun i => outRow (rowX X (i 0) (i 1)) (slabC C (i 0)) (mat A) (matLo W) (matHi W) (vec β) (i 2)

end Cert.AttnArrays

end
-- ==== Proof.KernelArrays.lean ====
/-
  From the kernel's blocks to its two result arrays.

  The grid has 16 × 8 points; point (b, j) reads rows 128 j … 128 j + 127 of batch entry `b` of the input, the whole
  context of batch entry `b`, the three weight matrices and the bias row (each the same block at every point), and
  writes rows 128 j … 128 j + 127 of batch entry `b` of both results. The arrays the region stages were written by
  the host from the arguments: the input, the context and the query weight unchanged (a change of float format is the
  identity on the extended reals), the first and the last 1024 columns of the output weight, and the bias as one row.
  So what point (b, j) writes back is block (b, j) of the row specification's two arrays; the blocks cover both
  arrays (row `p` of batch entry `b` is in block (b, p / 128)), and the arrays end holding the specification.
-/
import proofs.«130130_j12292196401203_2_alg».proof.Proof.Gen.KernelIdeal.Value
import Idealize.ShloMosaic.Lib.StableHlo.Run
import Idealize.ShloMosaic.Lib.ValueLayout
import proofs.«130130_j12292196401203_2_alg».proof.Proof.KernelRows
import proofs.«130130_j12292196401203_2_alg».proof.Proof.AttnArrays

set_option maxRecDepth 16384

noncomputable section

namespace Cert.KernelArrays

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)
open Cert.AttnSpec Cert.AttnArrays Cert.KernelRows

/-! ## What the body leaves in its two output blocks, over any blocks -/

theorem hz3 : (![0, 0, 0] : Fin 3 → Nat) = fun _ => 0 := funext fun a => by fin_cases a <;> rfl
theorem hz2 : (![0, 0] : Fin 2 → Nat) = fun _ => 0 := funext fun a => by fin_cases a <;> rfl

section Body
variable (x0 : Vec Ideal S1x128x1024 .bf16) (x1 : Vec Ideal S1x2048x1024 .bf16) (x2 x3 x4 : Vec Ideal S1024x1024 .bf16)
  (x5 : Vec Ideal S1x1024 .f32)

/-- The attention block at (·, r, s) is the weight of position `s` for block row `r`. -/
theorem out7_apply (u : Fin 1) (r : Fin 128) (s : Fin 2048) :
    out0_7 (F := Ideal) x0 x1 x2 x3 x4 x5 (ix3 u r s) = weight (bRow x0 r) (bCtx x1) (bMat x2) s := by
  unfold out0_7
  simp only [View.ld_unit_zero (S := S1x128x1024) hz3, View.ld_unit_zero (S := S1x2048x1024) hz3,
    View.ld_unit_zero (S := S1024x1024) hz2]
  rw [Value.canon7_eq]
  show k0_pay5 (F := Ideal) x0 x1 x2 (Value.ix7_0 (ix3 u r s)) = _
  rw [show Value.ix7_0 (ix3 u r s) = ix2 r s from funext fun a => by match a with | ⟨0, _⟩ => rfl | ⟨1, _⟩ => rfl]
  exact pay5_apply x0 x1 x2 r s

/-- The same at any block index whose row and position coordinates are `r` and `s`. -/
theorem out7_at (y : S1x128x2048.Idx) (r : Fin 128) (s : Fin 2048) (hr : (y 1).val = r.val) (hs : (y 2).val = s.val) :
    out0_7 (F := Ideal) x0 x1 x2 x3 x4 x5 y = weight (bRow x0 r) (bCtx x1) (bMat x2) s := by
  obtain ⟨u, r', s', rfl⟩ : ∃ (u : Fin 1) (r' : Fin 128) (s' : Fin 2048), y = ix3 u r' s' := ⟨y 0, y 1, y 2, eq_ix3 y⟩
  obtain rfl : r' = r := Fin.ext hr
  obtain rfl : s' = s := Fin.ext hs
  exact out7_apply x0 x1 x2 x3 x4 x5 u r' s'

/-- The output block at (·, r, h) is feature `h` of block row `r`'s projected output. -/
theorem out6_apply (u : Fin 1) (r : Fin 128) (h : Fin 1024) :
    out0_6 (F := Ideal) x0 x1 x2 x3 x4 x5 (ix3 u r h)
      = outRow (bRow x0 r) (bCtx x1) (bMat x2) (bMat x3) (bMat x4) (bVec x5) h := by
  unfold out0_6
  simp only [View.ld_unit_zero (S := S1x128x1024) hz3, View.ld_unit_zero (S := S1x2048x1024) hz3,
    View.ld_unit_zero (S := S1024x1024) hz2, View.ld_unit_zero (S := S1x1024) hz2]
  rw [Value.canon6_eq]
  show Ideal.tanh (k0_pay7 (F := Ideal) x0 x1 x2 x3 x4 (Value.ix6_0 (ix3 u r h)) + x5 (Value.ix6_1 (ix3 u r h))) = _
  rw [show Value.ix6_0 (ix3 u r h) = ix2 r h from funext fun a => by match a with | ⟨0, _⟩ => rfl | ⟨1, _⟩ => rfl,
    show Value.ix6_1 (ix3 u r h) = ix2 (0 : Fin 1) h from funext fun a => by match a with | ⟨0, _⟩ => rfl | ⟨1, _⟩ => rfl,
    pay7_apply]
  rfl

theorem out6_at (y : S1x128x1024.Idx) (r : Fin 128) (h : Fin 1024) (hr : (y 1).val = r.val) (hh : (y 2).val = h.val) :
    out0_6 (F := Ideal) x0 x1 x2 x3 x4 x5 y
      = outRow (bRow x0 r) (bCtx x1) (bMat x2) (bMat x3) (bMat x4) (bVec x5) h := by
  obtain ⟨u, r', h', rfl⟩ : ∃ (u : Fin 1) (r' : Fin 128) (h' : Fin 1024), y = ix3 u r' h' := ⟨y 0, y 1, y 2, eq_ix3 y⟩
  obtain rfl : r' = r := Fin.ext hr
  obtain rfl : h' = h := Fin.ext hh
  exact out6_apply x0 x1 x2 x3 x4 x5 u r' h'

end Body

variable (m : (ℓ : Loc nD τ sig) → Buf (Elt Ideal) ℓ) (ρ : Dev nD → PrngReg)

/-! ## The arrays the region stages, as the host wrote them from the arguments -/

theorem V_in (c : Dev nD) : (V m c main_v5 : S16x1024x1024.Idx → EReal) = m ((c : Thread nD τ).loc main_arg0) := by
  dsimp only [Gen.V, Gen.hostOps0]; after_results; rfl

theorem V_ctx (c : Dev nD) : (V m c main_v6 : S16x2048x1024.Idx → EReal) = m ((c : Thread nD τ).loc main_arg1) := by
  dsimp only [Gen.V, Gen.hostOps0]; after_results; rfl

theorem V_qw (c : Dev nD) : (V m c main_v7 : S1024x1024.Idx → EReal) = m ((c : Thread nD τ).loc main_arg2) := by
  dsimp only [Gen.V, Gen.hostOps0]; after_results; rfl

theorem V_lo (c : Dev nD) : (V m c main_v1 : S1024x1024.Idx → EReal)
    = extractStridedSlice S1024x1024 ![0, 0] (m ((c : Thread nD τ).loc main_arg3) : S1024x2048.Idx → EReal)
        slices_S1024x2048_S1024x1024_0_0 := by
  dsimp only [Gen.V, Gen.hostOps0]; after_results; rfl

theorem V_hi (c : Dev nD) : (V m c main_v3 : S1024x1024.Idx → EReal)
    = extractStridedSlice S1024x1024 ![0, 1024] (m ((c : Thread nD τ).loc main_arg3) : S1024x2048.Idx → EReal)
        slices_S1024x2048_S1024x1024_0_1024 := by
  dsimp only [Gen.V, Gen.hostOps0]; after_results; rfl

theorem V_bias (c : Dev nD) : (V m c main_v4 : S1x1024.Idx → EReal)
    = shapeCast S1x1024 (m ((c : Thread nD τ).loc main_arg4) : S1024.Idx → EReal) shapeCasts_S1024_S1x1024 := by
  dsimp only [Gen.V, Gen.hostOps0]; after_results; rfl

/-! ## The index maps over the grid -/

/-- The printed index maps, decided over the 128 points: the input rows and both results move together (batch entry,
    row block), the context with the batch entry alone, and the weights and the bias never. -/
theorem idx_facts : ∀ t : Fin cfg0.N,
    win0_0.index t (0 : Fin 3) = win0_7.index t (0 : Fin 3) ∧ win0_0.index t (1 : Fin 3) = win0_7.index t (1 : Fin 3)
    ∧ win0_0.index t (2 : Fin 3) = 0
    ∧ win0_1.index t (0 : Fin 3) = win0_7.index t (0 : Fin 3) ∧ win0_1.index t (1 : Fin 3) = 0 ∧ win0_1.index t (2 : Fin 3) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 3) = win0_7.index t (0 : Fin 3) ∧ win0_6.index t (1 : Fin 3) = win0_7.index t (1 : Fin 3)
    ∧ win0_6.index t (2 : Fin 3) = 0
    ∧ win0_7.index t (2 : Fin 3) = 0 ∧ win0_7.index t (0 : Fin 3) < 16 ∧ win0_7.index t (1 : Fin 3) < 8 :=
  (by decide +kernel : ∀ t : Fin grid0.N, _)

/-- Every (batch entry, row block) is some point's. -/
theorem idx_onto : ∀ (q0 : Fin 16) (q1 : Fin 8), ∃ t : Fin cfg0.N,
    win0_7.index t (0 : Fin 3) = q0.val ∧ win0_7.index t (1 : Fin 3) = q1.val :=
  (by decide +kernel : ∀ (q0 : Fin 16) (q1 : Fin 8), ∃ t : Fin grid0.N,
    win0_7.index t (0 : Fin 3) = q0.val ∧ win0_7.index t (1 : Fin 3) = q1.val)

/-- Row `r` of row block `j`. -/
def rowOf (j : Fin 8) (r : Fin 128) : Fin 1024 := ⟨j.val * 128 + r.val, by have := j.isLt; have := r.isLt; omega⟩

/-! ## The input blocks at a point -/

/-- The block of input rows at point (b, j): rows 128 j … of batch entry `b`. -/
theorem blk_rows (c : Dev nD) (t : Fin cfg0.N) (b : Fin 16) (j : Fin 8) (hb : win0_7.index t (0 : Fin 3) = b.val)
    (hj : win0_7.index t (1 : Fin 3) = j.val) (r : Fin 128) :
    bRow (iblk m c 0 t) r = rowX (m ((c : Thread nD τ).loc main_arg0)) b (rowOf j r) := by
  obtain ⟨e0, e1, e2, -⟩ := idx_facts t
  funext h
  show V m c main_v5 (((cfg0.win 0).blk t).view.emb (ix3 (0 : Fin 1) r h)) = _
  refine (congrFun (V_in m c) _).trans ?_
  refine congrArg (m ((c : Thread nD τ).loc main_arg0)) ?_
  funext a; apply Fin.ext
  match a with
  | ⟨0, _⟩ => show win0_0.index t (0 : Fin 3) * 1 + 1 * 0 = b.val; omega
  | ⟨1, _⟩ => show win0_0.index t (1 : Fin 3) * 128 + 1 * r.val = j.val * 128 + r.val; omega
  | ⟨2, _⟩ => show win0_0.index t (2 : Fin 3) * 1024 + 1 * h.val = h.val; omega

/-- The context block at point (b, j): batch entry `b`'s whole context. -/
theorem blk_ctx (c : Dev nD) (t : Fin cfg0.N) (b : Fin 16) (hb : win0_7.index t (0 : Fin 3) = b.val) :
    bCtx (iblk m c 1 t) = slabC (m ((c : Thread nD τ).loc main_arg1)) b := by
  obtain ⟨-, -, -, e0, e1, e2, -⟩ := idx_facts t
  funext s h
  show V m c main_v6 (((cfg0.win 1).blk t).view.emb (ix3 (0 : Fin 1) s h)) = _
  refine (congrFun (V_ctx m c) _).trans ?_
  refine congrArg (m ((c : Thread nD τ).loc main_arg1)) ?_
  funext a; apply Fin.ext
  match a with
  | ⟨0, _⟩ => show win0_1.index t (0 : Fin 3) * 1 + 1 * 0 = b.val; omega
  | ⟨1, _⟩ => show win0_1.index t (1 : Fin 3) * 2048 + 1 * s.val = s.val; omega
  | ⟨2, _⟩ => show win0_1.index t (2 : Fin 3) * 1024 + 1 * h.val = h.val; omega

/-- The query weight's block at any point: the whole weight. -/
theorem blk_qw (c : Dev nD) (t : Fin cfg0.N) : bMat (iblk m c 2 t) = mat (m ((c : Thread nD τ).loc main_arg2)) := by
  obtain ⟨-, -, -, -, -, -, e0, e1, -⟩ := idx_facts t
  funext o h
  show V m c main_v7 (((cfg0.win 2).blk t).view.emb (ix2 o h)) = _
  refine (congrFun (V_qw m c) _).trans ?_
  refine congrArg (m ((c : Thread nD τ).loc main_arg2)) ?_
  funext a; apply Fin.ext
  match a with
  | ⟨0, _⟩ => show win0_2.index t (0 : Fin 2) * 1024 + 1 * o.val = o.val; omega
  | ⟨1, _⟩ => show win0_2.index t (1 : Fin 2) * 1024 + 1 * h.val = h.val; omega

/-- The first weight half's block: the first 1024 columns of the output weight. -/
theorem blk_lo (c : Dev nD) (t : Fin cfg0.N) : bMat (iblk m c 3 t) = matLo (m ((c : Thread nD τ).loc main_arg3)) := by
  obtain ⟨-, -, -, -, -, -, -, -, e0, e1, -⟩ := idx_facts t
  funext h k
  show V m c main_v1 (((cfg0.win 3).blk t).view.emb (ix2 h k)) = _
  refine (congrFun (V_lo m c) _).trans ?_
  have e : ((cfg0.win 3).blk t).view.emb (ix2 h k) = ix2 h k := by
    funext a; apply Fin.ext
    match a with
    | ⟨0, _⟩ => show win0_3.index t (0 : Fin 2) * 1024 + 1 * h.val = h.val; omega
    | ⟨1, _⟩ => show win0_3.index t (1 : Fin 2) * 1024 + 1 * k.val = k.val; omega
  rw [e]
  exact slice2_axis1_apply 0 _ slices_S1024x2048_S1024x1024_0_0 h k _ (by show k.val = 0 + k.val; omega)

/-- The second weight half's block: the last 1024 columns of the output weight. -/
theorem blk_hi (c : Dev nD) (t : Fin cfg0.N) : bMat (iblk m c 4 t) = matHi (m ((c : Thread nD τ).loc main_arg3)) := by
  obtain ⟨-, -, -, -, -, -, -, -, -, -, e0, e1, -⟩ := idx_facts t
  funext h k
  show V m c main_v3 (((cfg0.win 4).blk t).view.emb (ix2 h k)) = _
  refine (congrFun (V_hi m c) _).trans ?_
  have e : ((cfg0.win 4).blk t).view.emb (ix2 h k) = ix2 h k := by
    funext a; apply Fin.ext
    match a with
    | ⟨0, _⟩ => show win0_4.index t (0 : Fin 2) * 1024 + 1 * h.val = h.val; omega
    | ⟨1, _⟩ => show win0_4.index t (1 : Fin 2) * 1024 + 1 * k.val = k.val; omega
  rw [e]
  exact slice2_axis1_apply 1024 _ slices_S1024x2048_S1024x1024_0_1024 h k _ (by show 1024 + k.val = 1024 + k.val; rfl)

/-- The bias block: the bias as one row. -/
theorem blk_bias (c : Dev nD) (t : Fin cfg0.N) : bVec (iblk m c 5 t) = vec (m ((c : Thread nD τ).loc main_arg4)) := by
  obtain ⟨-, -, -, -, -, -, -, -, -, -, -, -, e0, e1, -⟩ := idx_facts t
  funext h
  show V m c main_v4 (((cfg0.win 5).blk t).view.emb (ix2 (0 : Fin 1) h)) = _
  refine (congrFun (V_bias m c) _).trans ?_
  have e : ((cfg0.win 5).blk t).view.emb (ix2 (0 : Fin 1) h) = ix2 (0 : Fin 1) h := by
    funext a; apply Fin.ext
    match a with
    | ⟨0, _⟩ => show win0_5.index t (0 : Fin 2) * 1 + 1 * 0 = 0; omega
    | ⟨1, _⟩ => show win0_5.index t (1 : Fin 2) * 1024 + 1 * h.val = h.val; omega
  rw [e]
  exact shapeCast_a_1a_apply _ shapeCasts_S1024_S1x1024 (0 : Fin 1) h

/-! ## What each point writes back -/

/-- Point `t` writes back its block of the attention array. -/
theorem flushed_attn (c : Dev nD) (t : Fin cfg0.N) :
    (dats m 0 c).flushed 7 t = ((cfg0.win 7).blk t).view.read (Elt Ideal) (attnArr (m ((c : Thread nD τ).loc main_arg0)) (m ((c : Thread nD τ).loc main_arg1)) (m ((c : Thread nD τ).loc main_arg2))) := by
  have F := idx_facts t
  have h72 : win0_7.index t (2 : Fin 3) = 0 := F.2.2.2.2.2.2.2.2.2.2.2.2.2.2.2.2.2.1
  have hb : win0_7.index t (0 : Fin 3) < 16 := F.2.2.2.2.2.2.2.2.2.2.2.2.2.2.2.2.2.2.1
  have hj : win0_7.index t (1 : Fin 3) < 8 := F.2.2.2.2.2.2.2.2.2.2.2.2.2.2.2.2.2.2.2
  rw [Value.flushed7]
  funext y
  have hy0 : (y 0).val < 1 := (y 0).isLt
  have hy1 : (y 1).val < 128 := (y 1).isLt
  have hy2 : (y 2).val < 2048 := (y 2).isLt
  show out0_7 (iblk m c 0 t) (iblk m c 1 t) (iblk m c 2 t) (iblk m c 3 t) (iblk m c 4 t) (iblk m c 5 t) y
      = attnArr (m ((c : Thread nD τ).loc main_arg0)) (m ((c : Thread nD τ).loc main_arg1)) (m ((c : Thread nD τ).loc main_arg2)) (((cfg0.win 7).blk t).view.emb y)
  refine (out7_at (iblk m c 0 t) (iblk m c 1 t) (iblk m c 2 t) (iblk m c 3 t) (iblk m c 4 t) (iblk m c 5 t) y
    ⟨(y 1).val, hy1⟩ ⟨(y 2).val, hy2⟩ rfl rfl).trans ?_
  have E : ((cfg0.win 7).blk t).view.emb y
      = ix3 (⟨win0_7.index t (0 : Fin 3), hb⟩ : Fin 16) (rowOf ⟨win0_7.index t (1 : Fin 3), hj⟩ ⟨(y 1).val, hy1⟩)
          (⟨(y 2).val, hy2⟩ : Fin 2048) := by
    funext a; apply Fin.ext
    match a with
    | ⟨0, _⟩ => show win0_7.index t (0 : Fin 3) * 1 + 1 * (y 0).val = win0_7.index t (0 : Fin 3); omega
    | ⟨1, _⟩ => show win0_7.index t (1 : Fin 3) * 128 + 1 * (y 1).val = win0_7.index t (1 : Fin 3) * 128 + (y 1).val; omega
    | ⟨2, _⟩ => show win0_7.index t (2 : Fin 3) * 2048 + 1 * (y 2).val = (y 2).val; omega
  rw [E, blk_rows m c t ⟨win0_7.index t (0 : Fin 3), hb⟩ ⟨win0_7.index t (1 : Fin 3), hj⟩ rfl rfl,
    blk_ctx m c t ⟨win0_7.index t (0 : Fin 3), hb⟩ rfl, blk_qw m c t]
  rfl

/-- Point `t` writes back its block of the output array. -/
theorem flushed_out (c : Dev nD) (t : Fin cfg0.N) :
    (dats m 0 c).flushed 6 t
      = ((cfg0.win 6).blk t).view.read (Elt Ideal) (outArr (m ((c : Thread nD τ).loc main_arg0)) (m ((c : Thread nD τ).loc main_arg1)) (m ((c : Thread nD τ).loc main_arg2)) (m ((c : Thread nD τ).loc main_arg3)) (m ((c : Thread nD τ).loc main_arg4))) := by
  have F := idx_facts t
  have h60 : win0_6.index t (0 : Fin 3) = win0_7.index t (0 : Fin 3) := F.2.2.2.2.2.2.2.2.2.2.2.2.2.2.1
  have h61 : win0_6.index t (1 : Fin 3) = win0_7.index t (1 : Fin 3) := F.2.2.2.2.2.2.2.2.2.2.2.2.2.2.2.1
  have h62 : win0_6.index t (2 : Fin 3) = 0 := F.2.2.2.2.2.2.2.2.2.2.2.2.2.2.2.2.1
  have hb : win0_7.index t (0 : Fin 3) < 16 := F.2.2.2.2.2.2.2.2.2.2.2.2.2.2.2.2.2.2.1
  have hj : win0_7.index t (1 : Fin 3) < 8 := F.2.2.2.2.2.2.2.2.2.2.2.2.2.2.2.2.2.2.2
  rw [Value.flushed6]
  funext y
  have hy0 : (y 0).val < 1 := (y 0).isLt
  have hy1 : (y 1).val < 128 := (y 1).isLt
  have hy2 : (y 2).val < 1024 := (y 2).isLt
  show out0_6 (iblk m c 0 t) (iblk m c 1 t) (iblk m c 2 t) (iblk m c 3 t) (iblk m c 4 t) (iblk m c 5 t) y
      = outArr (m ((c : Thread nD τ).loc main_arg0)) (m ((c : Thread nD τ).loc main_arg1)) (m ((c : Thread nD τ).loc main_arg2)) (m ((c : Thread nD τ).loc main_arg3)) (m ((c : Thread nD τ).loc main_arg4)) (((cfg0.win 6).blk t).view.emb y)
  refine (out6_at (iblk m c 0 t) (iblk m c 1 t) (iblk m c 2 t) (iblk m c 3 t) (iblk m c 4 t) (iblk m c 5 t) y
    ⟨(y 1).val, hy1⟩ ⟨(y 2).val, hy2⟩ rfl rfl).trans ?_
  have E : ((cfg0.win 6).blk t).view.emb y
      = ix3 (⟨win0_7.index t (0 : Fin 3), hb⟩ : Fin 16) (rowOf ⟨win0_7.index t (1 : Fin 3), hj⟩ ⟨(y 1).val, hy1⟩)
          (⟨(y 2).val, hy2⟩ : Fin 1024) := by
    funext a; apply Fin.ext
    match a with
    | ⟨0, _⟩ => show win0_6.index t (0 : Fin 3) * 1 + 1 * (y 0).val = win0_7.index t (0 : Fin 3); omega
    | ⟨1, _⟩ => show win0_6.index t (1 : Fin 3) * 128 + 1 * (y 1).val = win0_7.index t (1 : Fin 3) * 128 + (y 1).val; omega
    | ⟨2, _⟩ => show win0_6.index t (2 : Fin 3) * 1024 + 1 * (y 2).val = (y 2).val; omega
  rw [E, blk_rows m c t ⟨win0_7.index t (0 : Fin 3), hb⟩ ⟨win0_7.index t (1 : Fin 3), hj⟩ rfl rfl,
    blk_ctx m c t ⟨win0_7.index t (0 : Fin 3), hb⟩ rfl, blk_qw m c t, blk_lo m c t, blk_hi m c t, blk_bias m c t]
  rfl

/-! ## The blocks cover both arrays -/

theorem mem_blk_attn (t : Fin cfg0.N) (i : S16x1024x2048.Idx) :
    i ∈ ((cfg0.win 7).blk t).view.set ↔ ∀ a : Fin 3, win0_7.index t a * S1x128x2048.size a ≤ (i a).val
      ∧ (i a).val < win0_7.index t a * S1x128x2048.size a + S1x128x2048.size a := by
  show i ∈ ((View.whole main_v8_1).slice (win0_7.rect t)).set ↔ _
  rw [View.set_slice_whole, Rect.mem_set_unit]
  exact Iff.rfl

theorem mem_blk_out (t : Fin cfg0.N) (i : S16x1024x1024.Idx) :
    i ∈ ((cfg0.win 6).blk t).view.set ↔ ∀ a : Fin 3, win0_6.index t a * S1x128x1024.size a ≤ (i a).val
      ∧ (i a).val < win0_6.index t a * S1x128x1024.size a + S1x128x1024.size a := by
  show i ∈ ((View.whole main_v8_0).slice (win0_6.rect t)).set ↔ _
  rw [View.set_slice_whole, Rect.mem_set_unit]
  exact Iff.rfl

/-- Entry (b, p, s) of the attention array is in the block of point (b, p / 128). -/
theorem cover_attn (i : S16x1024x2048.Idx) :
    ∃ t : Fin cfg0.N, (cfg0.win 7).flush t = true ∧ i ∈ ((cfg0.win 7).blk t).view.set := by
  have hi0 : (i 0).val < 16 := (i 0).isLt
  have hi1 : (i 1).val < 1024 := (i 1).isLt
  have hi2 : (i 2).val < 2048 := (i 2).isLt
  obtain ⟨t, q0, q1⟩ := idx_onto ⟨(i 0).val, hi0⟩ ⟨(i 1).val / 128, by omega⟩
  have q2 : win0_7.index t (2 : Fin 3) = 0 := (idx_facts t).2.2.2.2.2.2.2.2.2.2.2.2.2.2.2.2.2.1
  refine ⟨t, flush0_7 t, ?_⟩
  rw [mem_blk_attn]
  intro a
  match a with
  | ⟨0, _⟩ => show win0_7.index t (0 : Fin 3) * 1 ≤ (i 0).val ∧ (i 0).val < win0_7.index t (0 : Fin 3) * 1 + 1; simp only at q0; omega
  | ⟨1, _⟩ => show win0_7.index t (1 : Fin 3) * 128 ≤ (i 1).val ∧ (i 1).val < win0_7.index t (1 : Fin 3) * 128 + 128; simp only at q1; omega
  | ⟨2, _⟩ => show win0_7.index t (2 : Fin 3) * 2048 ≤ (i 2).val ∧ (i 2).val < win0_7.index t (2 : Fin 3) * 2048 + 2048; omega

/-- Entry (b, p, h) of the output array is in the block of point (b, p / 128). -/
theorem cover_out (i : S16x1024x1024.Idx) :
    ∃ t : Fin cfg0.N, (cfg0.win 6).flush t = true ∧ i ∈ ((cfg0.win 6).blk t).view.set := by
  have hi0 : (i 0).val < 16 := (i 0).isLt
  have hi1 : (i 1).val < 1024 := (i 1).isLt
  have hi2 : (i 2).val < 1024 := (i 2).isLt
  obtain ⟨t, q0, q1⟩ := idx_onto ⟨(i 0).val, hi0⟩ ⟨(i 1).val / 128, by omega⟩
  have F := idx_facts t
  have h60 : win0_6.index t (0 : Fin 3) = win0_7.index t (0 : Fin 3) := F.2.2.2.2.2.2.2.2.2.2.2.2.2.2.1
  have h61 : win0_6.index t (1 : Fin 3) = win0_7.index t (1 : Fin 3) := F.2.2.2.2.2.2.2.2.2.2.2.2.2.2.2.1
  have h62 : win0_6.index t (2 : Fin 3) = 0 := F.2.2.2.2.2.2.2.2.2.2.2.2.2.2.2.2.1
  refine ⟨t, flush0_6 t, ?_⟩
  rw [mem_blk_out]
  intro a
  match a with
  | ⟨0, _⟩ => show win0_6.index t (0 : Fin 3) * 1 ≤ (i 0).val ∧ (i 0).val < win0_6.index t (0 : Fin 3) * 1 + 1; simp only at q0; omega
  | ⟨1, _⟩ => show win0_6.index t (1 : Fin 3) * 128 ≤ (i 1).val ∧ (i 1).val < win0_6.index t (1 : Fin 3) * 128 + 128; simp only at q1; omega
  | ⟨2, _⟩ => show win0_6.index t (2 : Fin 3) * 1024 ≤ (i 2).val ∧ (i 2).val < win0_6.index t (2 : Fin 3) * 1024 + 1024; omega

/-! ## The arrays after the run -/

theorem final_attn (c : Dev nD) : (dats m 0 c).arrAt 7 cfg0.N = attnArr (m ((c : Thread nD τ).loc main_arg0)) (m ((c : Thread nD τ).loc main_arg1)) (m ((c : Thread nD τ).loc main_arg2)) :=
  (dats m 0 c).arrAt_eq_of_cover 7 (attnArr (m ((c : Thread nD τ).loc main_arg0)) (m ((c : Thread nD τ).loc main_arg1)) (m ((c : Thread nD τ).loc main_arg2))) (fun t _ => flushed_attn m c t) cover_attn

theorem final_out (c : Dev nD) : (dats m 0 c).arrAt 6 cfg0.N = outArr (m ((c : Thread nD τ).loc main_arg0)) (m ((c : Thread nD τ).loc main_arg1)) (m ((c : Thread nD τ).loc main_arg2)) (m ((c : Thread nD τ).loc main_arg3)) (m ((c : Thread nD τ).loc main_arg4)) :=
  (dats m 0 c).arrAt_eq_of_cover 6 (outArr (m ((c : Thread nD τ).loc main_arg0)) (m ((c : Thread nD τ).loc main_arg1)) (m ((c : Thread nD τ).loc main_arg2)) (m ((c : Thread nD τ).loc main_arg3)) (m ((c : Thread nD τ).loc main_arg4))) (fun t _ => flushed_out m c t) cover_out

/-- The kernel's run: both result arrays end at the row specification's arrays of the arguments, the arguments
    unchanged. -/
theorem run : θ_run defs (onTc (τ := τ) (main (F := Ideal))) ⟨m, fun _ => 0, ρ⟩ fun r => ∀ c : Dev nD,
      r.2.mem ((c : Thread nD τ).loc main_v8_0) = outArr (m ((c : Thread nD τ).loc main_arg0)) (m ((c : Thread nD τ).loc main_arg1)) (m ((c : Thread nD τ).loc main_arg2)) (m ((c : Thread nD τ).loc main_arg3)) (m ((c : Thread nD τ).loc main_arg4))
      ∧ r.2.mem ((c : Thread nD τ).loc main_v8_1) = attnArr (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (final_out m c), (h c).2.1.trans (final_attn m c), (h c).2.2⟩)
    (Value.run_blocks m ρ)

end Cert.KernelArrays

end
-- ==== Proof.RefRows.lean ====
/-
  The reference, read row by row.

  Each stage of the reference's host program, read at an index written by its coordinates (b, t, ·), is the
  corresponding quantity of the row specification for the query row (b, t) and batch entry `b`'s context: the
  first product is the query row, the batched product the scores, the maximum-reduce (and the `max` with −∞ that
  follows it) the row's largest score, then the shifted exponentials, their sum, the quotient (the weights), the
  batched product with the context (the mixed context), the join of the mixed context with the query row along the
  feature axis, and the product of that join with the whole output weight: a sum over 2048 joined features, which
  splits into the two sums over 1024 of the specification (`sum_join`).
-/
import proofs.«130130_j12292196401203_2_alg».proof.Proof.Gen.ReferenceIdeal.Read
import Idealize.ShloMosaic.Lib.Pipeline.Value
import proofs.«130130_j12292196401203_2_alg».proof.Proof.AttnArrays

noncomputable section

namespace Cert.RefRows

open Cert.ReferenceIdeal Cert.ReferenceIdeal.Gen Cert.ReferenceIdeal.Read Idealize.ShloMosaic Idealize.ShloMosaic.ValueIdx
open Cert.AttnSpec Cert.AttnArrays

variable (X : FVec Ideal S16x1024x1024 .f32) (C : FVec Ideal S16x2048x1024 .f32) (A : FVec Ideal S1024x1024 .f32)
  (W : FVec Ideal S1024x2048 .f32) (β : FVec Ideal S1024 .f32)

/-! ## Where each stage reads its operands, by coordinates -/

theorem lidx0 (b : Fin 16) (t o k : Fin 1024) : lidx_main_v0 (ix3 b t o) k = ix3 b t k := funext fun a => by match a with | ⟨0, _⟩ => rfl | ⟨1, _⟩ => rfl | ⟨2, _⟩ => rfl
theorem ridx0 (b : Fin 16) (t o k : Fin 1024) : ridx_main_v0 (ix3 b t o) k = ix2 o k := funext fun a => by match a with | ⟨0, _⟩ => rfl | ⟨1, _⟩ => rfl
theorem lidx1 (b : Fin 16) (t : Fin 1024) (s : Fin 2048) (k : Fin 1024) : lidx_main_v1 (ix3 b t s) k = ix3 b t k := funext fun a => by match a with | ⟨0, _⟩ => rfl | ⟨1, _⟩ => rfl | ⟨2, _⟩ => rfl
theorem ridx1 (b : Fin 16) (t : Fin 1024) (s : Fin 2048) (k : Fin 1024) : ridx_main_v1 (ix3 b t s) k = ix3 b s k := funext fun a => by match a with | ⟨0, _⟩ => rfl | ⟨1, _⟩ => rfl | ⟨2, _⟩ => rfl
theorem idx56 (b : Fin 16) (t : Fin 1024) (s : Fin 2048) : idx_main_v5 (idx_main_v6 (ix3 b t s)) = ix2 b t := funext fun a => by match a with | ⟨0, _⟩ => rfl | ⟨1, _⟩ => rfl
theorem idx9 (b : Fin 16) (t : Fin 1024) (k : Fin 2048) : idx_main_v9 (ix2 b t) k = ix3 b t k := funext fun a => by match a with | ⟨0, _⟩ => rfl | ⟨1, _⟩ => rfl | ⟨2, _⟩ => rfl
theorem idx1011 (b : Fin 16) (t : Fin 1024) (s : Fin 2048) : idx_main_v10 (idx_main_v11 (ix3 b t s)) = ix2 b t := funext fun a => by match a with | ⟨0, _⟩ => rfl | ⟨1, _⟩ => rfl
theorem lidx13 (b : Fin 16) (t h : Fin 1024) (k : Fin 2048) : lidx_main_v13 (ix3 b t h) k = ix3 b t k := funext fun a => by match a with | ⟨0, _⟩ => rfl | ⟨1, _⟩ => rfl | ⟨2, _⟩ => rfl
theorem ridx13 (b : Fin 16) (t h : Fin 1024) (k : Fin 2048) : ridx_main_v13 (ix3 b t h) k = ix3 b k h := funext fun a => by match a with | ⟨0, _⟩ => rfl | ⟨1, _⟩ => rfl | ⟨2, _⟩ => rfl
theorem lidx15 (b : Fin 16) (t h : Fin 1024) (k : Fin 2048) : lidx_main_v15 (ix3 b t h) k = ix3 b t k := funext fun a => by match a with | ⟨0, _⟩ => rfl | ⟨1, _⟩ => rfl | ⟨2, _⟩ => rfl
theorem ridx15 (b : Fin 16) (t h : Fin 1024) (k : Fin 2048) : ridx_main_v15 (ix3 b t h) k = ix2 h k := funext fun a => by match a with | ⟨0, _⟩ => rfl | ⟨1, _⟩ => rfl
theorem idx1617 (b : Fin 16) (t h : Fin 1024) : idx_main_v16 (idx_main_v17 (ix3 b t h)) = ix1 h := funext fun a => by match a with | ⟨0, _⟩ => rfl

/-- The index over (b, t) whose coordinate on the reduced axis is `k`. -/
theorem lift_last (h : S16x1024x2048.Reduces [2] S16x1024) (b : Fin 16) (t : Fin 1024) (k : Fin (S16x1024x2048.size 2)) :
    h.lift (ix2 b t) k = ix3 b t (⟨k.val, k.isLt⟩ : Fin 2048) := by
  funext c; apply Fin.ext
  fin_cases c <;> rfl

/-! ## The stages -/

/-- The first product is the query row. -/
theorem q_apply (b : Fin 16) (t o : Fin 1024) :
    val_main_v0 (F := Ideal) X A (ix3 b t o) = qRow (rowX X b t) (mat A) o := by
  rw [val_main_v0_apply]
  unfold qRow
  refine Finset.sum_congr rfl fun k _ => ?_
  rw [lidx0, ridx0]
  rfl

/-- The batched product with the context is the scores. -/
theorem score_apply (b : Fin 16) (t : Fin 1024) (s : Fin 2048) :
    val_main_v1 (F := Ideal) X C A (ix3 b t s) = score (rowX X b t) (slabC C b) (mat A) s := by
  rw [val_main_v1_apply]
  unfold score
  refine Finset.sum_congr rfl fun k _ => ?_
  rw [lidx1, ridx1, q_apply]
  rfl

/-- The maximum-reduce over the positions is the fold of `max` from −∞ over the row's scores. -/
theorem reduceMax_apply (b : Fin 16) (t : Fin 1024) :
    val_main_v2 (F := Ideal) X C A (ix2 b t) = rowMax (rowX X b t) (slabC C b) (mat A) := by
  have h : S16x1024x2048.Reduces [2] S16x1024 := by decide
  unfold val_main_v2
  have e := Host.reduce_eq_fold_single (α := Ideal .f32) (FloatOps.maximumf (F := Ideal) (φ := .f32))
    (val_main_v1 (F := Ideal) X C A) (val_main_cst (F := Ideal)) reducesTo_S16x1024x2048_S16x1024_d2 h h_S_ (ix2 b t)
  refine e.trans ?_
  have hf : (val_main_v1 (F := Ideal) X C A ∘ h.lift (ix2 b t))
      = fun k : Fin 2048 => score (rowX X b t) (slabC C b) (mat A) k :=
    funext fun k => by rw [Function.comp_apply, lift_last, score_apply]; rfl
  exact congrArg (fun f => Finset.fold max (Ideal.ofBits .f32 0xFF800000#32) f (Finset.univ : Finset (Fin 2048))) hf

/-- The `max` of that with −∞ changes nothing. -/
theorem rowMax_apply (b : Fin 16) (t : Fin 1024) :
    val_main_v4 (F := Ideal) X C A (ix2 b t) = rowMax (rowX X b t) (slabC C b) (mat A) := by
  rw [val_main_v4_apply, reduceMax_apply]
  exact max_negInf _

/-- The shifted exponentials. -/
theorem expo_apply (b : Fin 16) (t : Fin 1024) (s : Fin 2048) :
    val_main_v8 (F := Ideal) X C A (ix3 b t s) = expo (rowX X b t) (slabC C b) (mat A) s := by
  rw [val_main_v8_apply, val_main_v7_apply, val_main_v6_apply, val_main_v5_apply, score_apply, idx56, rowMax_apply]
  rfl

/-- Their sum over the positions, from zero. -/
theorem denom_apply (b : Fin 16) (t : Fin 1024) :
    val_main_v9 (F := Ideal) X C A (ix2 b t) = denom (rowX X b t) (slabC C b) (mat A) := by
  rw [val_main_v9_apply]
  show Ideal.ofBits .f32 0x00000000#32 + _ = _
  rw [Ideal.ofBits_zero_f32, zero_add]
  unfold denom
  refine Finset.sum_congr rfl fun k _ => ?_
  rw [idx9, expo_apply]

/-- The quotient: the attention weights. -/
theorem weight_apply (b : Fin 16) (t : Fin 1024) (s : Fin 2048) :
    val_main_v12 (F := Ideal) X C A (ix3 b t s) = weight (rowX X b t) (slabC C b) (mat A) s := by
  rw [val_main_v12_apply, expo_apply, val_main_v11_apply, val_main_v10_apply, idx1011, denom_apply]
  rfl

/-- The batched product of the weights with the context: the mixed context. -/
theorem mix_apply (b : Fin 16) (t h : Fin 1024) :
    val_main_v13 (F := Ideal) X C A (ix3 b t h) = mix (rowX X b t) (slabC C b) (mat A) h := by
  rw [val_main_v13_apply]
  unfold mix
  refine Finset.sum_congr rfl fun k _ => ?_
  rw [lidx13, ridx13, weight_apply]
  rfl

/-- The join along the features, at one of its first 1024 coordinates, is the mixed context there. -/
theorem join_left (b : Fin 16) (t k : Fin 1024) :
    val_main_v14 (F := Ideal) X C A (ix3 b t (⟨k.val, by have := k.isLt; omega⟩ : Fin 2048))
      = mix (rowX X b t) (slabC C b) (mat A) k := by
  unfold val_main_v14
  refine (concatenate_pair_apply_left (t := S16x1024x2048) (s₁ := S16x1024x1024) (s₂ := S16x1024x1024) (2 : Fin 3) _ _ concatenates_S16x1024x1024_S16x1024x1024_S16x1024x2048_d2 _ rfl
    (ix3 b t k) (fun a => by match a with | ⟨0, _⟩ => rfl | ⟨1, _⟩ => rfl | ⟨2, _⟩ => rfl)).trans ?_
  exact mix_apply X C A b t k

/-- At one of its last 1024 coordinates it is the query row, 1024 back. -/
theorem join_right (b : Fin 16) (t k : Fin 1024) :
    val_main_v14 (F := Ideal) X C A (ix3 b t (⟨1024 + k.val, by have := k.isLt; omega⟩ : Fin 2048))
      = qRow (rowX X b t) (mat A) k := by
  unfold val_main_v14
  refine (concatenate_pair_apply_right (t := S16x1024x2048) (s₁ := S16x1024x1024) (s₂ := S16x1024x1024) (2 : Fin 3) _ _ concatenates_S16x1024x1024_S16x1024x1024_S16x1024x2048_d2 _ rfl rfl
    (ix3 b t k) (fun a ha => by match a with | ⟨0, _⟩ => rfl | ⟨1, _⟩ => rfl | ⟨2, _⟩ => exact absurd rfl ha)
    (by show k.val + 1024 = 1024 + k.val; omega)).trans ?_
  exact q_apply X A b t k

/-- The product of the join with the whole output weight: the sum over the 2048 joined features splits into the
    mixed context against the weight's first 1024 columns plus the query row against its last 1024. -/
theorem proj_apply (b : Fin 16) (t h : Fin 1024) :
    val_main_v15 (F := Ideal) X C A W (ix3 b t h) = proj (rowX X b t) (slabC C b) (mat A) (matLo W) (matHi W) h := by
  rw [val_main_v15_apply, sum_join]
  unfold proj
  congr 1
  · refine Finset.sum_congr rfl fun k _ => ?_
    rw [lidx15, ridx15, join_left]
    rfl
  · refine Finset.sum_congr rfl fun k _ => ?_
    rw [lidx15, ridx15, join_right]
    rfl

/-- The bias added and the hyperbolic tangent taken: the output row. -/
theorem out_apply (b : Fin 16) (t h : Fin 1024) :
    val_main_v19 (F := Ideal) X C A W β (ix3 b t h)
      = outRow (rowX X b t) (slabC C b) (mat A) (matLo W) (matHi W) (vec β) h := by
  rw [val_main_v19_apply, val_main_v18_apply, proj_apply, val_main_v17_apply, val_main_v16_apply, idx1617]
  rfl

/-! ## The two results as whole arrays -/

/-- The reference's attention result is the array of the row specification's weights. -/
theorem ref_attn : val_main_v12 (F := Ideal) X C A = attnArr X C A := by
  funext i
  obtain ⟨b, t, s, rfl⟩ : ∃ (b : Fin 16) (t : Fin 1024) (s : Fin 2048), i = ix3 b t s := ⟨i 0, i 1, i 2, eq_ix3 i⟩
  exact weight_apply X C A b t s

/-- The reference's output result is the array of the row specification's outputs. -/
theorem ref_out : val_main_v19 (F := Ideal) X C A W β = outArr X C A W β := by
  funext i
  obtain ⟨b, t, h, rfl⟩ : ∃ (b : Fin 16) (t : Fin 1024) (h : Fin 1024), i = ix3 b t h := ⟨i 0, i 1, i 2, eq_ix3 i⟩
  exact out_apply X C A W β b t h

end Cert.RefRows

end
-- ==== Proof.lean ====
/-
  A fused attention layer against its plain reference, equal on the extended reals.

  Both programs take an input [16, 1024, 1024], a context [16, 2048, 1024], a query weight [1024, 1024], an output
  weight [1024, 2048] and a bias [1024], and return, for every batch entry `b` and row `t`:
    the attention weights over the 2048 context positions — the softmax of the scores q · C(b, s, ·), where
    q = x(b, t, ·) · Aᵀ is the query row —, and
    tanh ((mix ‖ q) · Wᵀ + β), where mix is the weights' combination of the context rows and `‖` joins along the
    features.
  The kernel computes one block of 128 rows per grid point, with the output weight cut in two halves and the joined
  product written as a sum of two products; the reference computes whole arrays and joins before one product. Read at
  an index, both are the same row specification (Proof/AttnSpec.lean): every product is a finite sum of products, the
  row maximum a fold of `max` from −∞ on both sides, the exponentials, the quotient and the hyperbolic tangent the same
  functions, and the only law between the two spellings is that a sum over the 2048 joined features is the sum over
  the first 1024 plus the sum over the last 1024 — true in any commutative monoid, so no finiteness of the inputs is
  used. The kernel's run is read block by block and assembled (Proof/KernelRows.lean, Proof/KernelArrays.lean), the
  reference's stage by stage (Proof/RefRows.lean). The ideal pass rewrote nothing, so `preserves` is `True`.
-/
import proofs.«130130_j12292196401203_2_alg».proof.Defs
import proofs.«130130_j12292196401203_2_alg».proof.Proof.Gen.Kernel
import proofs.«130130_j12292196401203_2_alg».proof.Proof.Gen.Kernel.Skeleton
import proofs.«130130_j12292196401203_2_alg».proof.Proof.Gen.Kernel.Launch
import proofs.«130130_j12292196401203_2_alg».proof.Proof.Gen.Kernel.Points
import proofs.«130130_j12292196401203_2_alg».proof.Proof.Gen.Kernel.Frame
import proofs.«130130_j12292196401203_2_alg».proof.Proof.Gen.KernelIdeal
import proofs.«130130_j12292196401203_2_alg».proof.Proof.Gen.KernelIdeal.Skeleton
import proofs.«130130_j12292196401203_2_alg».proof.Proof.Gen.KernelIdeal.Launch
import proofs.«130130_j12292196401203_2_alg».proof.Proof.Gen.KernelIdeal.Points
import proofs.«130130_j12292196401203_2_alg».proof.Proof.Gen.KernelIdeal.Frame
import proofs.«130130_j12292196401203_2_alg».proof.Proof.Gen.ReferenceIdeal
import proofs.«130130_j12292196401203_2_alg».proof.Proof.Gen.Pre_finite_inputs
import proofs.«130130_j12292196401203_2_alg».proof.Proof.Gen.KernelIdeal.Value
import proofs.«130130_j12292196401203_2_alg».proof.Proof.Gen.ReferenceIdeal.Run
import proofs.«130130_j12292196401203_2_alg».proof.Proof.Gen.ReferenceIdeal.Read
import proofs.«130130_j12292196401203_2_alg».proof.Proof.KernelArrays
import proofs.«130130_j12292196401203_2_alg».proof.Proof.RefRows
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's run, its two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- From memories that agree on the five arguments both programs end with the row specification's two arrays of
    those arguments: the kernel's blocks assembled, the reference's stages composed. -/
theorem algebraic : Cert.algebraic_KernelIdeal_ReferenceIdeal := by
  intro m ρ m' ρ' _ hagree
  refine ⟨_, _, Cert.KernelArrays.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v19_eq, Cert.RefRows.ref_out, (hagree c).1, (hagree c).2.1, (hagree c).2.2.1,
      (hagree c).2.2.2.1, (hagree c).2.2.2.2]
  · rw [Cert.ReferenceIdeal.Read.val_main_v12_eq, Cert.RefRows.ref_attn, (hagree c).1, (hagree c).2.1, (hagree c).2.2.1]

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
